-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S512x2048 : Shape := ⟨2, ![512, 2048]⟩
abbrev S2048 : Shape := ⟨1, ![2048]⟩
abbrev S128x16 : Shape := ⟨2, ![128, 16]⟩
abbrev S16 : Shape := ⟨1, ![16]⟩
abbrev S16x128 : Shape := ⟨2, ![16, 128]⟩
abbrev S128 : Shape := ⟨1, ![128]⟩
abbrev S2048x512 : Shape := ⟨2, ![2048, 512]⟩
abbrev S512 : Shape := ⟨1, ![512]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S2048x512 .f32) (main_arg8 : FVec F S512 .f32) (main_v33 : IVec S_ 1) : IVec S_ 1 :=
  let main_v34 : FVec F S2048x512 .f32 := Host.absf main_arg7
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S16 .f32) (main_arg5 : FVec F S16x128 .f32) (main_arg6 : FVec F S128 .f32) (main_arg7 : FVec F S2048x512 .f32) (main_arg8 : FVec F S512 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x128 .f32 := Host.absf main_arg5
  let main_cst_8 : FVec F S_ .f32 := constant S_ .f32 0x7F800000#32
  let main_v25 : FVec F S16x128 .f32 := broadcastInDim S16x128 ![] bcast_S_S16x128 main_cst_8
  let main_v26 : IVec S16x128 1 := cmpf .olt main_v24 main_v25
  let main_c_9 : IVec S_ 1 := constantI S_ 1 1#1
  let main_v27 : IVec S_ 1 := (fun x v => Host.reduce IntOp.andi x v reducesTo_S16x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S32x1024x512 .f32) (main_arg1 : FVec F S512x2048 .f32) (main_arg2 : FVec F S2048 .f32) (main_arg3 : FVec F S128x16 .f32) (main_arg4 : FVec F S16 .f32) (main_arg5 : FVec F S16x128 .f32) (main_arg6 : FVec F S128 .f32) (main_arg7 : FVec F S2048x512 .f32) (main_arg8 : FVec F S512 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_arg5 main_arg6 main_arg7 main_arg8 main_v13 main_v16
-- ==== Kernel.lean ====
abbrev S32x1024x512 : Shape := ⟨3, ![32, 1024, 512]⟩
abbrev S512x2048 : Shape := ⟨2, ![512, 2048]⟩
abbrev S2048 : Shape := ⟨1, ![2048]⟩
abbrev S128x16 : Shape := ⟨2, ![128, 16]⟩
abbrev S16 : Shape := ⟨1, ![16]⟩
abbrev S16x128 : Shape := ⟨2, ![16, 128]⟩
abbrev S128 : Shape := ⟨1, ![128]⟩
abbrev S2048x512 : Shape := ⟨2, ![2048, 512]⟩
abbrev S512 : Shape := ⟨1, ![512]⟩
abbrev S16x16 : Shape := ⟨2, ![16, 16]⟩
abbrev S_ : Shape := ⟨0, ![]⟩
abbrev S16x1x16x1 : Shape := ⟨4, ![16, 1, 16, 1]⟩
abbrev S1x128x1x16 : Shape := ⟨4, ![1, 128, 1, 16]⟩
abbrev S16x128x16x16 : Shape := ⟨4, ![16, 128, 16, 16]⟩
abbrev S2048x256 : Shape := ⟨2, ![2048, 256]⟩
abbrev S1x16x1x128 : Shape := ⟨4, ![1, 16, 1, 128]⟩
abbrev S16x16x16x128 : Shape := ⟨4, ![16, 16, 16, 128]⟩
abbrev S256x2048 : Shape := ⟨2, ![256, 2048]⟩
abbrev S1x16x1x16 : Shape := ⟨4, ![1, 16, 1, 16]⟩
abbrev S16x16x16x16 : Shape := ⟨4, ![16, 16, 16, 16]⟩
abbrev S256x256 : Shape := ⟨2, ![256, 256]⟩
abbrev S1x2048 : Shape := ⟨2, ![1, 2048]⟩
abbrev S1x16 : Shape := ⟨2, ![1, 16]⟩
abbrev S256 : Shape := ⟨1, ![256]⟩
abbrev S1x256 : Shape := ⟨2, ![1, 256]⟩
abbrev S1x128 : Shape := ⟨2, ![1, 128]⟩
abbrev S1x512 : Shape := ⟨2, ![1, 512]⟩
abbrev S1x1024x512 : Shape := ⟨3, ![1, 1024, 512]⟩
abbrev S1024x2048 : Shape := ⟨2, ![1024, 2048]⟩
abbrev S1024x512 : Shape := ⟨2, ![1024, 512]⟩
abbrev S512x512 : Shape := ⟨2, ![512, 512]⟩
abbrev S1024x256 : Shape := ⟨2, ![1024, 256]⟩
abbrev S256x512 : Shape := ⟨2, ![256, 512]⟩

abbrev nBuf : Space → Nat
  | .hbm => 52
  | .vmem => 15
  | .smem => 0
  | _ => 0

abbrev bufTy : (tb : Table) → Fin (tcTables nBuf tb) → BufTy
  | .hbm, ⟨0, _⟩ => ⟨S32x1024x512, .f32⟩
  | .hbm, ⟨1, _⟩ => ⟨S512x2048, .f32⟩
  | .hbm, ⟨2, _⟩ => ⟨S2048, .f32⟩
  | .hbm, ⟨3, _⟩ => ⟨S128x16, .f32⟩
  | .hbm, ⟨4, _⟩ => ⟨S16, .f32⟩
  | .hbm, ⟨5, _⟩ => ⟨S16x128, .f32⟩
  | .hbm, ⟨6, _⟩ => ⟨S128, .f32⟩
  | .hbm, ⟨7, _⟩ => ⟨S2048x512, .f32⟩
  | .hbm, ⟨8, _⟩ => ⟨S512, .f32⟩
  | .hbm, ⟨9, _⟩ => ⟨S512x2048, .bf16⟩
  | .hbm, ⟨10, _⟩ => ⟨S2048x512, .bf16⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S16x1x16x1, .f32⟩
  | .hbm, ⟨19, _⟩ => ⟨S1x128x1x16, .f32⟩
  | .hbm, ⟨20, _⟩ => ⟨S16x128x16x16, .f32⟩
  | .hbm, ⟨21, _⟩ => ⟨S16x128x16x16, .f32⟩
  | .hbm, ⟨22, _⟩ => ⟨S16x128x16x16, .f32⟩
  | .hbm, ⟨23, _⟩ => ⟨S2048x256, .f32⟩
  | .hbm, ⟨24, _⟩ => ⟨S16x1x16x1, .f32⟩
  | .hbm, ⟨25, _⟩ => ⟨S1x16x1x128, .f32⟩
  | .hbm, ⟨26, _⟩ => ⟨S16x16x16x128, .f32⟩
  | .hbm, ⟨27, _⟩ => ⟨S16x16x16x128, .f32⟩
  | .hbm, ⟨28, _⟩ => ⟨S16x16x16x128, .f32⟩
  | .hbm, ⟨29, _⟩ => ⟨S256x2048, .f32⟩
  | .hbm, ⟨30, _⟩ => ⟨S_, .f32⟩
  | .hbm, ⟨31, _⟩ => ⟨S16x16, .f32⟩
  | .hbm, ⟨32, _⟩ => ⟨S16x1x16x1, .f32⟩
  | .hbm, ⟨33, _⟩ => ⟨S1x16x1x16, .f32⟩
  | .hbm, ⟨34, _⟩ => ⟨S16x16x16x16, .f32⟩
  | .hbm, ⟨35, _⟩ => ⟨S16x16x16x16, .f32⟩
  | .hbm, ⟨36, _⟩ => ⟨S16x16x16x16, .f32⟩
  | .hbm, ⟨37, _⟩ => ⟨S256x256, .f32⟩
  | .hbm, ⟨38, _⟩ => ⟨S2048x256, .bf16⟩
  | .hbm, ⟨39, _⟩ => ⟨S256x2048, .bf16⟩
  | .hbm, ⟨40, _⟩ => ⟨S256x256, .bf16⟩
  | .hbm, ⟨41, _⟩ => ⟨S1x2048, .f32⟩
  | .hbm, ⟨42, _⟩ => ⟨S1x16, .f32⟩
  | .hbm, ⟨43, _⟩ => ⟨S16x16, .f32⟩
  | .hbm, ⟨44, _⟩ => ⟨S256, .f32⟩
  | .hbm, ⟨45, _⟩ => ⟨S1x256, .f32⟩
  | .hbm, ⟨46, _⟩ => ⟨S1x128, .f32⟩
  | .hbm, ⟨47, _⟩ => ⟨S16x128, .f32⟩
  | .hbm, ⟨48, _⟩ => ⟨S2048, .f32⟩
  | .hbm, ⟨49, _⟩ => ⟨S1x2048, .f32⟩
  | .hbm, ⟨50, _⟩ => ⟨S1x512, .f32⟩
  | .hbm, ⟨51, _⟩ => ⟨S32x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x2048, .bf16⟩
  | .local _ .vmem, ⟨3, _⟩ => ⟨S1x2048, .f32⟩
  | .local _ .vmem, ⟨4, _⟩ => ⟨S2048x256, .bf16⟩
  | .local _ .vmem, ⟨5, _⟩ => ⟨S1x256, .f32⟩
  | .local _ .vmem, ⟨6, _⟩ => ⟨S256x2048, .bf16⟩
  | .local _ .vmem, ⟨7, _⟩ => ⟨S1x2048, .f32⟩
  | .local _ .vmem, ⟨8, _⟩ => ⟨S256x256, .bf16⟩
  | .local _ .vmem, ⟨9, _⟩ => ⟨S2048x512, .bf16⟩
  | .local _ .vmem, ⟨10, _⟩ => ⟨S1x512, .f32⟩
  | .local _ .vmem, ⟨11, _⟩ => ⟨S1x1024x512, .f32⟩
  | .local _ .vmem, ⟨12, _⟩ => ⟨S1x1024x512, .f32⟩
  | .local _ .vmem, ⟨13, _⟩ => ⟨S1024x2048, .bf16⟩
  | .local _ .vmem, ⟨14, _⟩ => ⟨S1024x2048, .bf16⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S128x16_S1x128x1x16_1_3 : S128x16.BroadcastsInDim S1x128x1x16 (![1, 3] : Fin 2 → Fin S1x128x1x16.rank)
  bcast_S16x1x16x1_S16x128x16x16_0_1_2_3 : S16x1x16x1.BroadcastsInDim S16x128x16x16 (![0, 1, 2, 3] : Fin 4 → Fin S16x128x16x16.rank)
  bcast_S1x128x1x16_S16x128x16x16_0_1_2_3 : S1x128x1x16.BroadcastsInDim S16x128x16x16 (![0, 1, 2, 3] : Fin 4 → Fin S16x128x16x16.rank)
  shapeCasts_S16x128x16x16_S2048x256 : S16x128x16x16.ShapeCasts S2048x256
  bcast_S16x128_S1x16x1x128_1_3 : S16x128.BroadcastsInDim S1x16x1x128 (![1, 3] : Fin 2 → Fin S1x16x1x128.rank)
  bcast_S16x1x16x1_S16x16x16x128_0_1_2_3 : S16x1x16x1.BroadcastsInDim S16x16x16x128 (![0, 1, 2, 3] : Fin 4 → Fin S16x16x16x128.rank)
  bcast_S1x16x1x128_S16x16x16x128_0_1_2_3 : S1x16x1x128.BroadcastsInDim S16x16x16x128 (![0, 1, 2, 3] : Fin 4 → Fin S16x16x16x128.rank)
  shapeCasts_S16x16x16x128_S256x2048 : S16x16x16x128.ShapeCasts S256x2048
  bcast_S16x16_S1x16x1x16_1_3 : S16x16.BroadcastsInDim S1x16x1x16 (![1, 3] : Fin 2 → Fin S1x16x1x16.rank)
  bcast_S16x1x16x1_S16x16x16x16_0_1_2_3 : S16x1x16x1.BroadcastsInDim S16x16x16x16 (![0, 1, 2, 3] : Fin 4 → Fin S16x16x16x16.rank)
  bcast_S1x16x1x16_S16x16x16x16_0_1_2_3 : S1x16x1x16.BroadcastsInDim S16x16x16x16 (![0, 1, 2, 3] : Fin 4 → Fin S16x16x16x16.rank)
  shapeCasts_S16x16x16x16_S256x256 : S16x16x16x16.ShapeCasts S256x256
  shapeCasts_S2048_S1x2048 : S2048.ShapeCasts S1x2048
  shapeCasts_S16_S1x16 : S16.ShapeCasts S1x16
  bcast_S1x16_S16x16_0_1 : S1x16.BroadcastsInDim S16x16 (![0, 1] : Fin 2 → Fin S16x16.rank)
  shapeCasts_S16x16_S256 : S16x16.ShapeCasts S256
  shapeCasts_S256_S1x256 : S256.ShapeCasts S1x256
  shapeCasts_S128_S1x128 : S128.ShapeCasts S1x128
  bcast_S1x128_S16x128_0_1 : S1x128.BroadcastsInDim S16x128 (![0, 1] : Fin 2 → Fin S16x128.rank)
  shapeCasts_S16x128_S2048 : S16x128.ShapeCasts S2048
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x2048_S512x512_0_0 : ∀ a, (![0, 0] : Fin 2 → Nat) a + S512x512.size a ≤ S512x2048.size a
  h_S512x512 : 0 < S512x512.numel
  shapeCasts_S512x512_S512x512 : S512x512.ShapeCasts S512x512
  inb_S1x2048_S1x512_0_0 : ∀ a, (![0, 0] : Fin 2 → Nat) a + S1x512.size a ≤ S1x2048.size a
  h_S1x512 : 0 < S1x512.numel
  shapeCasts_S1x512_S1x512 : S1x512.ShapeCasts S1x512
  broadcasts_S1x512_S1024x512 : S1x512.Broadcasts S1024x512
  inb_S1024x2048_S1024x512_0_0 : ∀ a, (![0, 0] : Fin 2 → Nat) a + S1024x512.size a ≤ S1024x2048.size a
  h_S1024x512 : 0 < S1024x512.numel
  shapeCasts_S1024x512_S1024x512 : S1024x512.ShapeCasts S1024x512
  packedbf16_S1024x2048_S1024x512_0_0 : (Rect.unit (s := S1024x2048) ![0, 0] S1024x512.size inb_S1024x2048_S1024x512_0_0).PackedRows (EltTy.packing .bf16)
  inb_S512x2048_S512x512_0_512 : ∀ a, (![0, 512] : Fin 2 → Nat) a + S512x512.size a ≤ S512x2048.size a
  inb_S1x2048_S1x512_0_512 : ∀ a, (![0, 512] : Fin 2 → Nat) a + S1x512.size a ≤ S1x2048.size a
  inb_S1024x2048_S1024x512_0_512 : ∀ a, (![0, 512] : Fin 2 → Nat) a + S1024x512.size a ≤ S1024x2048.size a
  packedbf16_S1024x2048_S1024x512_0_512 : (Rect.unit (s := S1024x2048) ![0, 512] S1024x512.size inb_S1024x2048_S1024x512_0_512).PackedRows (EltTy.packing .bf16)
  inb_S512x2048_S512x512_0_1024 : ∀ a, (![0, 1024] : Fin 2 → Nat) a + S512x512.size a ≤ S512x2048.size a
  inb_S1x2048_S1x512_0_1024 : ∀ a, (![0, 1024] : Fin 2 → Nat) a + S1x512.size a ≤ S1x2048.size a
  inb_S1024x2048_S1024x512_0_1024 : ∀ a, (![0, 1024] : Fin 2 → Nat) a + S1024x512.size a ≤ S1024x2048.size a
  packedbf16_S1024x2048_S1024x512_0_1024 : (Rect.unit (s := S1024x2048) ![0, 1024] S1024x512.size inb_S1024x2048_S1024x512_0_1024).PackedRows (EltTy.packing .bf16)
  inb_S512x2048_S512x512_0_1536 : ∀ a, (![0, 1536] : Fin 2 → Nat) a + S512x512.size a ≤ S512x2048.size a
  inb_S1x2048_S1x512_0_1536 : ∀ a, (![0, 1536] : Fin 2 → Nat) a + S1x512.size a ≤ S1x2048.size a
  inb_S1024x2048_S1024x512_0_1536 : ∀ a, (![0, 1536] : Fin 2 → Nat) a + S1024x512.size a ≤ S1024x2048.size a
  packedbf16_S1024x2048_S1024x512_0_1536 : (Rect.unit (s := S1024x2048) ![0, 1536] S1024x512.size inb_S1024x2048_S1024x512_0_1536).PackedRows (EltTy.packing .bf16)
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S256 : S1024x256.Reduces [0] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2048_S256x512_0_0 : ∀ a, (![0, 0] : Fin 2 → Nat) a + S256x512.size a ≤ S256x2048.size a
  h_S256x512 : 0 < S256x512.numel
  shapeCasts_S256x512_S256x512 : S256x512.ShapeCasts S256x512
  inb_S256x2048_S256x512_0_512 : ∀ a, (![0, 512] : Fin 2 → Nat) a + S256x512.size a ≤ S256x2048.size a
  inb_S256x2048_S256x512_0_1024 : ∀ a, (![0, 1024] : Fin 2 → Nat) a + S256x512.size a ≤ S256x2048.size a
  inb_S256x2048_S256x512_0_1536 : ∀ a, (![0, 1536] : Fin 2 → Nat) a + S256x512.size a ≤ S256x2048.size a
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  dot_S1024x256_S256x512_S1024x512_1_0_0_1_n_n_wf : DotDims.WF S1024x256 S256x512 S1024x512 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .bf16 = 32 ∨ (Rect.block (s := S2048x256) S2048x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S256x2048.size a
  hwx0_5 : ∀ i : grid0.Coords, EltTy.bits .bf16 = 32 ∨ (Rect.block (s := S256x2048) S256x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x512.size a
  hwx0_8 : ∀ i : grid0.Coords, EltTy.bits .bf16 = 32 ∨ (Rect.block (s := S2048x512) S2048x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x512.size a ≤ S32x1024x512.size a
  hwx0_10 : ∀ i : grid0.Coords, EltTy.bits .f32 = 32 ∨ (Rect.block (s := S32x1024x512) S1x1024x512.size (cc0_transform_10 i) (hinb0_10 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S2048x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S512x2048 : Shape := ⟨2, ![512, 2048]⟩
abbrev S2048 : Shape := ⟨1, ![2048]⟩
abbrev S128x16 : Shape := ⟨2, ![128, 16]⟩
abbrev S16 : Shape := ⟨1, ![16]⟩
abbrev S16x128 : Shape := ⟨2, ![16, 128]⟩
abbrev S128 : Shape := ⟨1, ![128]⟩
abbrev S2048x512 : Shape := ⟨2, ![2048, 512]⟩
abbrev S512 : Shape := ⟨1, ![512]⟩
abbrev S32x1024x2048 : Shape := ⟨3, ![32, 1024, 2048]⟩
abbrev S1x1x2048 : Shape := ⟨3, ![1, 1, 2048]⟩
abbrev S32x1024x16x128 : Shape := ⟨4, ![32, 1024, 16, 128]⟩
abbrev S32x16x1024x128 : Shape := ⟨4, ![32, 16, 1024, 128]⟩
abbrev S32x16x1024x16 : Shape := ⟨4, ![32, 16, 1024, 16]⟩
abbrev S1x1x1x16 : Shape := ⟨4, ![1, 1, 1, 16]⟩
abbrev S_ : Shape := ⟨0, ![]⟩
abbrev S32x16x16 : Shape := ⟨3, ![32, 16, 16]⟩
abbrev S32x16x1x16 : Shape := ⟨4, ![32, 16, 1, 16]⟩
abbrev S32x16x1024 : Shape := ⟨3, ![32, 16, 1024]⟩
abbrev S32x16x1024x1 : Shape := ⟨4, ![32, 16, 1024, 1]⟩
abbrev S1x1x1x128 : Shape := ⟨4, ![1, 1, 1, 128]⟩
abbrev S1x1x512 : Shape := ⟨3, ![1, 1, 512]⟩

abbrev nBuf : Space → Nat
  | .hbm => 51
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S512x2048, .f32⟩
  | .hbm, ⟨2, _⟩ => ⟨S2048, .f32⟩
  | .hbm, ⟨3, _⟩ => ⟨S128x16, .f32⟩
  | .hbm, ⟨4, _⟩ => ⟨S16, .f32⟩
  | .hbm, ⟨5, _⟩ => ⟨S16x128, .f32⟩
  | .hbm, ⟨6, _⟩ => ⟨S128, .f32⟩
  | .hbm, ⟨7, _⟩ => ⟨S2048x512, .f32⟩
  | .hbm, ⟨8, _⟩ => ⟨S512, .f32⟩
  | .hbm, ⟨9, _⟩ => ⟨S32x1024x2048, .f32⟩
  | .hbm, ⟨10, _⟩ => ⟨S1x1x2048, .f32⟩
  | .hbm, ⟨11, _⟩ => ⟨S32x1024x2048, .f32⟩
  | .hbm, ⟨12, _⟩ => ⟨S32x1024x2048, .f32⟩
  | .hbm, ⟨13, _⟩ => ⟨S32x1024x16x128, .f32⟩
  | .hbm, ⟨14, _⟩ => ⟨S32x16x1024x128, .f32⟩
  | .hbm, ⟨15, _⟩ => ⟨S32x16x1024x16, .f32⟩
  | .hbm, ⟨16, _⟩ => ⟨S1x1x1x16, .f32⟩
  | .hbm, ⟨17, _⟩ => ⟨S32x16x1024x16, .f32⟩
  | .hbm, ⟨18, _⟩ => ⟨S32x16x1024x16, .f32⟩
  | .hbm, ⟨19, _⟩ => ⟨S_, .f32⟩
  | .hbm, ⟨20, _⟩ => ⟨S32x16x16, .f32⟩
  | .hbm, ⟨21, _⟩ => ⟨S_, .f32⟩
  | .hbm, ⟨22, _⟩ => ⟨S32x16x16, .f32⟩
  | .hbm, ⟨23, _⟩ => ⟨S32x16x16, .f32⟩
  | .hbm, ⟨24, _⟩ => ⟨S32x16x1x16, .f32⟩
  | .hbm, ⟨25, _⟩ => ⟨S32x16x1024x16, .f32⟩
  | .hbm, ⟨26, _⟩ => ⟨S32x16x1024x16, .f32⟩
  | .hbm, ⟨27, _⟩ => ⟨S32x16x1024x16, .f32⟩
  | .hbm, ⟨28, _⟩ => ⟨S_, .f32⟩
  | .hbm, ⟨29, _⟩ => ⟨S32x16x16, .f32⟩
  | .hbm, ⟨30, _⟩ => ⟨S32x16x1x16, .f32⟩
  | .hbm, ⟨31, _⟩ => ⟨S32x16x1024x16, .f32⟩
  | .hbm, ⟨32, _⟩ => ⟨S32x16x1024x16, .f32⟩
  | .hbm, ⟨33, _⟩ => ⟨S_, .f32⟩
  | .hbm, ⟨34, _⟩ => ⟨S32x16x1024, .f32⟩
  | .hbm, ⟨35, _⟩ => ⟨S32x16x1024x1, .f32⟩
  | .hbm, ⟨36, _⟩ => ⟨S_, .f32⟩
  | .hbm, ⟨37, _⟩ => ⟨S32x16x1024x1, .f32⟩
  | .hbm, ⟨38, _⟩ => ⟨S32x16x1024x1, .f32⟩
  | .hbm, ⟨39, _⟩ => ⟨S32x16x1024x16, .f32⟩
  | .hbm, ⟨40, _⟩ => ⟨S32x16x1024x16, .f32⟩
  | .hbm, ⟨41, _⟩ => ⟨S32x16x1024x128, .f32⟩
  | .hbm, ⟨42, _⟩ => ⟨S1x1x1x128, .f32⟩
  | .hbm, ⟨43, _⟩ => ⟨S32x16x1024x128, .f32⟩
  | .hbm, ⟨44, _⟩ => ⟨S32x16x1024x128, .f32⟩
  | .hbm, ⟨45, _⟩ => ⟨S32x1024x16x128, .f32⟩
  | .hbm, ⟨46, _⟩ => ⟨S32x1024x2048, .f32⟩
  | .hbm, ⟨47, _⟩ => ⟨S32x1024x512, .f32⟩
  | .hbm, ⟨48, _⟩ => ⟨S1x1x512, .f32⟩
  | .hbm, ⟨49, _⟩ => ⟨S32x1024x512, .f32⟩
  | .hbm, ⟨50, _⟩ => ⟨S32x1024x512, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S32x1024x2048_0_1_2 : S1x1x2048.BroadcastsInDim S32x1024x2048 (![0, 1, 2] : Fin 3 → Fin S32x1024x2048.rank)
  shapeCasts_S32x1024x2048_S32x1024x16x128 : S32x1024x2048.ShapeCasts S32x1024x16x128
  transposes_S32x1024x16x128_S32x16x1024x128_0_2_1_3 : S32x1024x16x128.Transposes [0, 2, 1, 3] S32x16x1024x128
  bcast_S16_S1x1x1x16_3 : S16.BroadcastsInDim S1x1x1x16 (![3] : Fin 1 → Fin S1x1x1x16.rank)
  bcast_S1x1x1x16_S32x16x1024x16_0_1_2_3 : S1x1x1x16.BroadcastsInDim S32x16x1024x16 (![0, 1, 2, 3] : Fin 4 → Fin S32x16x1024x16.rank)
  reducesTo_S32x16x1024x16_S32x16x16_d2 : S32x16x1024x16.ReducesTo [2] S32x16x16
  h_S_ : 0 < S_.numel
  bcast_S_S32x16x16 : S_.BroadcastsInDim S32x16x16 (![] : Fin 0 → Fin S32x16x16.rank)
  bcast_S32x16x16_S32x16x1x16_0_1_3 : S32x16x16.BroadcastsInDim S32x16x1x16 (![0, 1, 3] : Fin 3 → Fin S32x16x1x16.rank)
  bcast_S32x16x1x16_S32x16x1024x16_0_1_2_3 : S32x16x1x16.BroadcastsInDim S32x16x1024x16 (![0, 1, 2, 3] : Fin 4 → Fin S32x16x1024x16.rank)
  reducesTo_S32x16x1024x16_S32x16x1024_d3 : S32x16x1024x16.ReducesTo [3] S32x16x1024
  bcast_S32x16x1024_S32x16x1024x1_0_1_2 : S32x16x1024.BroadcastsInDim S32x16x1024x1 (![0, 1, 2] : Fin 3 → Fin S32x16x1024x1.rank)
  bcast_S_S32x16x1024x1 : S_.BroadcastsInDim S32x16x1024x1 (![] : Fin 0 → Fin S32x16x1024x1.rank)
  bcast_S32x16x1024x1_S32x16x1024x16_0_1_2_3 : S32x16x1024x1.BroadcastsInDim S32x16x1024x16 (![0, 1, 2, 3] : Fin 4 → Fin S32x16x1024x16.rank)
  bcast_S128_S1x1x1x128_3 : S128.BroadcastsInDim S1x1x1x128 (![3] : Fin 1 → Fin S1x1x1x128.rank)
  bcast_S1x1x1x128_S32x16x1024x128_0_1_2_3 : S1x1x1x128.BroadcastsInDim S32x16x1024x128 (![0, 1, 2, 3] : Fin 4 → Fin S32x16x1024x128.rank)
  transposes_S32x16x1024x128_S32x1024x16x128_0_2_1_3 : S32x16x1024x128.Transposes [0, 2, 1, 3] S32x1024x16x128
  shapeCasts_S32x1024x16x128_S32x1024x2048 : S32x1024x16x128.ShapeCasts S32x1024x2048
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  dot_S32x1024x512_S512x2048_S32x1024x2048_2_0_01_1_n_n_wf : DotDims.WF S32x1024x512 S512x2048 S32x1024x2048 [2] [0] [0, 1] [1] [] []
  dot_S32x16x1024x128_S128x16_S32x16x1024x16_3_0_012_1_n_n_wf : DotDims.WF S32x16x1024x128 S128x16 S32x16x1024x16 [3] [0] [0, 1, 2] [1] [] []
  dot_S32x16x1024x16_S16x128_S32x16x1024x128_3_0_012_1_n_n_wf : DotDims.WF S32x16x1024x16 S16x128 S32x16x1024x128 [3] [0] [0, 1, 2] [1] [] []
  dot_S32x1024x2048_S2048x512_S32x1024x512_2_0_01_1_n_n_wf : DotDims.WF S32x1024x2048 S2048x512 S32x1024x512 [2] [0] [0, 1] [1] [] []

variable [Facts₀]

def dot_S32x1024x512_S512x2048_S32x1024x2048_2_0_01_1_n_n : DotDims S32x1024x512 S512x2048 S32x1024x2048 where
  lhsContracting := [2]
  rhsContracting := [0]
  lhsNonContracting := [0, 1]
  rhsNonContracting := [1]
  lhsBatch := []
  rhsBatch := []
  wf := dot_S32x1024x512_S512x2048_S32x1024x2048_2_0_01_1_n_n_wf
def dot_S32x16x1024x128_S128x16_S32x16x1024x16_3_0_012_1_n_n : DotDims S32x16x1024x128 S128x16 S32x16x1024x16 where
  lhsContracting := [3]
  rhsContracting := [0]
  lhsNonContracting := [0, 1, 2]
  rhsNonContracting := [1]
  lhsBatch := []
  rhsBatch := []
  wf := dot_S32x16x1024x128_S128x16_S32x16x1024x16_3_0_012_1_n_n_wf
def dot_S32x16x1024x16_S16x128_S32x16x1024x128_3_0_012_1_n_n : DotDims S32x16x1024x16 S16x128 S32x16x1024x128 where
  lhsContracting := [3]
  rhsContracting := [0]
  lhsNonContracting := [0, 1, 2]
  rhsNonContracting := [1]
  lhsBatch := []
  rhsBatch := []
  wf := dot_S32x16x1024x16_S16x128_S32x16x1024x128_3_0_012_1_n_n_wf
def dot_S32x1024x2048_S2048x512_S32x1024x512_2_0_01_1_n_n : DotDims S32x1024x2048 S2048x512 S32x1024x512 where
  lhsContracting := [2]
  rhsContracting := [0]
  lhsNonContracting := [0, 1]
  rhsNonContracting := [1]
  lhsBatch := []
  rhsBatch := []
  wf := dot_S32x1024x2048_S2048x512_S32x1024x512_2_0_01_1_n_n_wf

class Facts : Prop extends Facts₀ where

variable [Facts]
-- ==== Proof.KPiece.lean ====
/-
  What one grid point's body leaves in the output block, as a term of the ten staged input blocks.

  The body fills the first scratch buffer (1024 × 2048) with the in-projection, four column chunks of 512 at a time,
  reads it back whole, forms the packed attention shares (1024 × 256), fills the second scratch buffer with the
  back-projection chunk by chunk, reads it back whole and stores the out-projection as the output block.  Here the two
  scratch contents are named as the contents four covering column stores leave, and the run's found piece is shown to
  be the out-projection of the second one.
-/
import proofs.«169363_j8134668059232_2_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic
open Idealize.SL Idealize.SL.Sem

variable {F : FTy → Type} [FloatOps F]

theorem zero2 : (![0, 0] : Fin 2 → Nat) = fun _ => 0 := funext fun a => by fin_cases a <;> rfl
/-- Through the rectangle that is a whole 1024 × 2048 buffer, a position is itself. -/
theorem whole_idx (j : S1024x2048.Idx) :
    (Rect.unit ![0, 0] ![1024, 2048] inb_S1024x2048_S1024x2048_0_0).idx j = j :=
  funext fun a => Fin.ext (by
    match a with
    | ⟨0, _⟩ => show 0 + 1 * (j 0).val = (j 0).val; omega
    | ⟨1, _⟩ => show 0 + 1 * (j 1).val = (j 1).val; omega)
theorem zero3 : (![0, 0, 0] : Fin 3 → Nat) = fun _ => 0 := funext fun a => by fin_cases a <;> rfl

/-- The first scratch buffer after the four in-projection stores: chunk `c` of the columns holds the batch's rows times
    columns `512c … 512c+511` of the input weights, plus those columns of the bias. -/
def hiddenBuf (x0 : Vec F S1x1024x512 .f32) (x1 : Vec F S512x2048 .bf16) (x2 : Vec F S1x2048 .f32) : S1024x2048.Idx → Elt F .bf16 :=
  View.canon
    [⟨Rect.unit ![0, 1536] ![1024, 512] inb_S1024x2048_S1024x512_0_1536,
        k0_pay8 (k0_pay3 x0) (View.ld x1 (Rect.unit ![0, 1536] ![512, 512] inb_S512x2048_S512x512_0_1536))
          (View.ld x2 (Rect.unit ![0, 1536] ![1, 512] inb_S1x2048_S1x512_0_1536))⟩,
      ⟨Rect.unit ![0, 1024] ![1024, 512] inb_S1024x2048_S1024x512_0_1024,
        k0_pay7 (k0_pay6 x0 (View.ld x1 (Rect.unit ![0, 1024] ![512, 512] inb_S512x2048_S512x512_0_1024))
          (View.ld x2 (Rect.unit ![0, 1024] ![1, 512] inb_S1x2048_S1x512_0_1024)))⟩,
      ⟨Rect.unit ![0, 512] ![1024, 512] inb_S1024x2048_S1024x512_0_512,
        k0_pay5 x0 (View.ld x1 (Rect.unit ![0, 512] ![512, 512] inb_S512x2048_S512x512_0_512))
          (View.ld x2 (Rect.unit ![0, 512] ![1, 512] inb_S1x2048_S1x512_0_512))⟩,
      ⟨Rect.unit ![0, 0] ![1024, 512] inb_S1024x2048_S1024x512_0_0,
        k0_pay4 x0 (View.ld x1 (Rect.unit ![0, 0] ![512, 512] inb_S512x2048_S512x512_0_0))
          (View.ld x2 (Rect.unit ![0, 0] ![1, 512] inb_S1x2048_S1x512_0_0))⟩]

/-- The packed attention shares of the point's rows: the body's arithmetic between the two scratch buffers. -/
def shareBlk (x0 : Vec F S1x1024x512 .f32) (x1 : Vec F S512x2048 .bf16) (x2 : Vec F S1x2048 .f32) (x3 : Vec F S2048x256 .bf16)
    (x4 : Vec F S1x256 .f32) (x7 : Vec F S256x256 .bf16) : FVec F S1024x256 .f32 :=
  k0_pay9 (hiddenBuf x0 x1 x2) x3 x4 x7

/-- The second scratch buffer after the four back-projection stores. -/
def backBuf (s : FVec F S1024x256 .f32) (x5 : Vec F S256x2048 .bf16) (x6 : Vec F S1x2048 .f32) : S1024x2048.Idx → Elt F .bf16 :=
  View.canon
    [⟨Rect.unit ![0, 1536] ![1024, 512] inb_S1024x2048_S1024x512_0_1536,
        k0_pay1 (k0_pay10 s) (View.ld x5 (Rect.unit ![0, 1536] ![256, 512] inb_S256x2048_S256x512_0_1536))
          (View.ld x6 (Rect.unit ![0, 1536] ![1, 512] inb_S1x2048_S1x512_0_1536))⟩,
      ⟨Rect.unit ![0, 1024] ![1024, 512] inb_S1024x2048_S1024x512_0_1024,
        k0_pay13 s (View.ld x5 (Rect.unit ![0, 1024] ![256, 512] inb_S256x2048_S256x512_0_1024))
          (View.ld x6 (Rect.unit ![0, 1024] ![1, 512] inb_S1x2048_S1x512_0_1024))⟩,
      ⟨Rect.unit ![0, 512] ![1024, 512] inb_S1024x2048_S1024x512_0_512,
        k0_pay12 s (View.ld x5 (Rect.unit ![0, 512] ![256, 512] inb_S256x2048_S256x512_0_512))
          (View.ld x6 (Rect.unit ![0, 512] ![1, 512] inb_S1x2048_S1x512_0_512))⟩,
      ⟨Rect.unit ![0, 0] ![1024, 512] inb_S1024x2048_S1024x512_0_0,
        k0_pay11 s (View.ld x5 (Rect.unit ![0, 0] ![256, 512] inb_S256x2048_S256x512_0_0))
          (View.ld x6 (Rect.unit ![0, 0] ![1, 512] inb_S1x2048_S1x512_0_0))⟩]

/-- The output block: the out-projection of the second scratch buffer. -/
def outBlk (x0 : Vec F S1x1024x512 .f32) (x1 : Vec F S512x2048 .bf16) (x2 : Vec F S1x2048 .f32) (x3 : Vec F S2048x256 .bf16) (x4 : Vec F S1x256 .f32) (x5 : Vec F S256x2048 .bf16) (x6 : Vec F S1x2048 .f32) (x7 : Vec F S256x256 .bf16) (x8 : Vec F S2048x512 .bf16) (x9 : Vec F S1x512 .f32) : FVec F S1x1024x512 .f32 :=
  k0_pay2 x8 (backBuf (shareBlk x0 x1 x2 x3 x4 x7) x5 x6) x9

set_option maxHeartbeats 1000000 in
/-- The block the run found for the output is that term: the found piece read back, the staged inputs read as
    themselves, each scratch buffer read back whole as what its four stores left. -/
theorem out0_eq (c : Dev nD) (i : grid0.Coords) (arg1 : Memref sig .tc .vmem S1x1024x512 .f32) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S2048x256 .bf16) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S256x256 .bf16) (harg8 : arg8.IsWhole) (arg9 : Memref sig .tc .vmem S2048x512 .bf16) (harg9 : arg9.IsWhole) (arg10 : Memref sig .tc .vmem S1x512 .f32) (harg10 : arg10.IsWhole) (arg11 : Memref sig .tc .vmem S1x1024x512 .f32) (harg11 : arg11.IsWhole) (arg12 : Memref sig .tc .vmem S1024x2048 .bf16) (harg12 : arg12.IsWhole) (arg13 : Memref sig .tc .vmem S1024x2048 .bf16) (harg13 : arg13.IsWhole)
    (x0 : Vec F S1x1024x512 .f32) (x1 : Vec F S512x2048 .bf16) (x2 : Vec F S1x2048 .f32) (x3 : Vec F S2048x256 .bf16) (x4 : Vec F S1x256 .f32) (x5 : Vec F S256x2048 .bf16) (x6 : Vec F S1x2048 .f32) (x7 : Vec F S256x256 .bf16) (x8 : Vec F S2048x512 .bf16) (x9 : Vec F S1x512 .f32) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = outBlk x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread, View.readCov_eq_canon']
  rw [View.canon_unit_zero zero3]
  simp only [View.ld_unit_zero (S := S1x1024x512) zero3, View.ld_unit_zero (S := S2048x512) zero2,
    View.ld_unit_zero (S := S1x512) zero2, View.ld_unit_zero (S := S2048x256) zero2, View.ld_unit_zero (S := S1x256) zero2,
    View.ld_unit_zero (S := S256x256) zero2, whole_idx]
  rfl

end Cert.KernelIdeal.Body

end
-- ==== Proof.LibColumnReduce.lean ====
/-
  The largest entry and the sum of a COLUMN, over the extended reals: a reduction along the FIRST axis of an `[a, b]`
  array, read at column `q`, is the fold of `max` (from the value its accumulator word denotes), respectively the sum,
  over the entries `(n, q)` of that column — the vector unit's `multi_reduction <maximumf>` / `<add>` along axis 0 (a
  softmax taken down the rows).  General in the extents; indices are built from coordinates so that the lemmas apply by
  unification.  Each comes in two forms: with the side conditions as the library states them, and (`_lit`) with the
  accumulator a literal word and the side conditions typed as a printed program's own proofs are
  (`0xFF800000#32 = 0xFF800000#32`), which is the form that rewrites inside an unfolded payload.
-/
import Idealize.ShloMosaic.Lib.ValueIdx
import Idealize.ShloMosaic.PureOps.Ideal.Laws

namespace Cert.Lib.ColumnReduce

open Idealize.ShloMosaic Idealize.ShloMosaic.ValueIdx

/-- The vector unit's maximum along the first axis, read at column `q`. -/
theorem max_axis0_apply {a b : ℕ} (v : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (q : Fin b) :
    multiReduction .maximumf [0] ⟨1, ![b]⟩ v acc h hφ hacc (ix1 q)
      = (Finset.univ : Finset (Fin a)).fold max (Ideal.ofBits .f32 acc) fun n => v (ix2 n q) := by
  refine (Ideal.multiReduction_maximumf_single v acc h hφ hacc (ix1 q)).trans ?_
  refine congrArg (fun f => (Finset.univ : Finset (Fin a)).fold max (Ideal.ofBits .f32 acc) f)
    (funext fun n => congrArg v (funext fun d => ?_))
  match d with
  | ⟨0, _⟩ => rfl
  | ⟨1, _⟩ => rfl

/-- The vector unit's sum along the first axis, read at column `q`. -/
theorem sum_axis0_apply {a b : ℕ} (v : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (q : Fin b) :
    multiReduction .add [0] ⟨1, ![b]⟩ v acc h hφ hacc (ix1 q) = ∑ n : Fin a, v (ix2 n q) := by
  refine (Ideal.multiReduction_add_single v acc h hφ hacc (ix1 q)).trans ?_
  refine Finset.sum_congr rfl fun n _ => congrArg v (funext fun d => ?_)
  match d with
  | ⟨0, _⟩ => rfl
  | ⟨1, _⟩ => rfl

/-- The maximum from the word of -∞, with the side conditions typed as a printed program's proofs are. -/
theorem max_axis0_lit {a b : ℕ} (v : FVec Ideal ⟨2, ![a, b]⟩ .f32) (h : (⟨2, ![a, b]⟩ : Shape).Reduces [0] ⟨1, ![b]⟩)
    (hφ : FTy.f32 = FTy.f32 ∨ FTy.f32 = FTy.bf16) (hacc : (0xFF800000#32 : BitVec 32) = 0xFF800000#32) (q : Fin b) :
    multiReduction .maximumf [0] ⟨1, ![b]⟩ v 0xFF800000#32 h hφ hacc (ix1 q)
      = (Finset.univ : Finset (Fin a)).fold max (Ideal.ofBits .f32 0xFF800000#32) fun n => v (ix2 n q) :=
  max_axis0_apply v 0xFF800000#32 h hφ hacc q

/-- The sum from the zero word, likewise. -/
theorem sum_axis0_lit {a b : ℕ} (v : FVec Ideal ⟨2, ![a, b]⟩ .f32) (h : (⟨2, ![a, b]⟩ : Shape).Reduces [0] ⟨1, ![b]⟩)
    (hφ : FTy.f32 = FTy.f32 ∨ FTy.f32 = FTy.bf16) (hacc : (0x00000000#32 : BitVec 32) = 0x00000000#32) (q : Fin b) :
    multiReduction .add [0] ⟨1, ![b]⟩ v 0x00000000#32 h hφ hacc (ix1 q) = ∑ n : Fin a, v (ix2 n q) :=
  sum_axis0_apply v 0x00000000#32 h hφ hacc q

end Cert.Lib.ColumnReduce
-- ==== Proof.KOps.lean ====
/-
  The body's non-pointwise operations read at an entry, over the extended reals: each matrix product into a zero
  accumulator is the sum over the shared axis of the products of entries, and the maximum and the sum down the rows of a
  1024 × 256 block are, at column `q`, the fold of max (from the accumulator word's value) and the sum over the rows
  of the entries of that column.
-/
import proofs.«169363_j8134668059232_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws
import proofs.«169363_j8134668059232_2_alg».proof.Proof.LibColumnReduce

noncomputable section

namespace Cert.KernelIdeal.Ops

open Cert.KernelIdeal Idealize.ShloMosaic Idealize.ShloMosaic.ValueIdx

theorem mm_inproj_l0 (j : S1024x512.Idx) (q : dot_S1024x512_S512x512_S1024x512_1_0_0_1_n_n.contr.Idx) : (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm_inproj_l1 (j : S1024x512.Idx) (q : dot_S1024x512_S512x512_S1024x512_1_0_0_1_n_n.contr.Idx) : (dot_S1024x512_S512x512_S1024x512_1_0_0_1_n_n.lhsIdx j q 1).val = (q ⟨0, by decide⟩).val :=
  dot_S1024x512_S512x512_S1024x512_1_0_0_1_n_n.lhsIdx_val_of_single rfl j q
theorem mm_inproj_r0 (j : S1024x512.Idx) (q : dot_S1024x512_S512x512_S1024x512_1_0_0_1_n_n.contr.Idx) : (dot_S1024x512_S512x512_S1024x512_1_0_0_1_n_n.rhsIdx j q 0).val = (q ⟨0, by decide⟩).val :=
  dot_S1024x512_S512x512_S1024x512_1_0_0_1_n_n.rhsIdx_val_of_single rfl j q
theorem mm_inproj_r1 (j : S1024x512.Idx) (q : dot_S1024x512_S512x512_S1024x512_1_0_0_1_n_n.contr.Idx) : (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- An entry of the 1024×512 by 512×512 product into a zero accumulator: the sum over the shared axis. -/
theorem mm_inproj (lhs : FVec Ideal S1024x512 .bf16) (rhs : FVec Ideal S512x512 .bf16) (p : Fin 1024) (c : Fin 512) :
    matmul dot_S1024x512_S512x512_S1024x512_1_0_0_1_n_n none lhs rhs (constant S1024x512 .f32 0x00000000#32) (ix2 p c)
      = ∑ k : Fin 512, lhs (ix2 p k) * rhs (ix2 k c) := by
  refine (Ideal.matmul_constant_zero_apply dot_S1024x512_S512x512_S1024x512_1_0_0_1_n_n none lhs rhs (ix2 p c)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p c) ((contrEquiv1 dot_S1024x512_S512x512_S1024x512_1_0_0_1_n_n 512 rfl rfl).symm k) = ix2 p k := funext fun a => Fin.ext (by
    match a with
    | ⟨0, _⟩ => exact mm_inproj_l0 _ _
    | ⟨1, _⟩ => exact (mm_inproj_l1 _ _).trans hk)
  have er : dot_S1024x512_S512x512_S1024x512_1_0_0_1_n_n.rhsIdx (ix2 p c) ((contrEquiv1 dot_S1024x512_S512x512_S1024x512_1_0_0_1_n_n 512 rfl rfl).symm k) = ix2 k c := funext fun a => Fin.ext (by
    match a with
    | ⟨0, _⟩ => exact (mm_inproj_r0 _ _).trans hk
    | ⟨1, _⟩ => exact mm_inproj_r1 _ _)
  rw [el, er]

theorem mm_score_l0 (j : S1024x256.Idx) (q : dot_S1024x2048_S2048x256_S1024x256_1_0_0_1_n_n.contr.Idx) : (dot_S1024x2048_S2048x256_S1024x256_1_0_0_1_n_n.lhsIdx j q 0).val = (j 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem mm_score_l1 (j : S1024x256.Idx) (q : dot_S1024x2048_S2048x256_S1024x256_1_0_0_1_n_n.contr.Idx) : (dot_S1024x2048_S2048x256_S1024x256_1_0_0_1_n_n.lhsIdx j q 1).val = (q ⟨0, by decide⟩).val :=
  dot_S1024x2048_S2048x256_S1024x256_1_0_0_1_n_n.lhsIdx_val_of_single rfl j q
theorem mm_score_r0 (j : S1024x256.Idx) (q : dot_S1024x2048_S2048x256_S1024x256_1_0_0_1_n_n.contr.Idx) : (dot_S1024x2048_S2048x256_S1024x256_1_0_0_1_n_n.rhsIdx j q 0).val = (q ⟨0, by decide⟩).val :=
  dot_S1024x2048_S2048x256_S1024x256_1_0_0_1_n_n.rhsIdx_val_of_single rfl j q
theorem mm_score_r1 (j : S1024x256.Idx) (q : dot_S1024x2048_S2048x256_S1024x256_1_0_0_1_n_n.contr.Idx) : (dot_S1024x2048_S2048x256_S1024x256_1_0_0_1_n_n.rhsIdx j q 1).val = (j 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- An entry of the 1024×2048 by 2048×256 product into a zero accumulator: the sum over the shared axis. -/
theorem mm_score (lhs : FVec Ideal S1024x2048 .bf16) (rhs : FVec Ideal S2048x256 .bf16) (p : Fin 1024) (c : Fin 256) :
    matmul dot_S1024x2048_S2048x256_S1024x256_1_0_0_1_n_n none lhs rhs (constant S1024x256 .f32 0x00000000#32) (ix2 p c)
      = ∑ k : Fin 2048, lhs (ix2 p k) * rhs (ix2 k c) := by
  refine (Ideal.matmul_constant_zero_apply dot_S1024x2048_S2048x256_S1024x256_1_0_0_1_n_n none lhs rhs (ix2 p c)).trans ?_
  rw [← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p c) ((contrEquiv1 dot_S1024x2048_S2048x256_S1024x256_1_0_0_1_n_n 2048 rfl rfl).symm k) = ix2 p k := funext fun a => Fin.ext (by
    match a with
    | ⟨0, _⟩ => exact mm_score_l0 _ _
    | ⟨1, _⟩ => exact (mm_score_l1 _ _).trans hk)
  have er : dot_S1024x2048_S2048x256_S1024x256_1_0_0_1_n_n.rhsIdx (ix2 p c) ((contrEquiv1 dot_S1024x2048_S2048x256_S1024x256_1_0_0_1_n_n 2048 rfl rfl).symm k) = ix2 k c := funext fun a => Fin.ext (by
    match a with
    | ⟨0, _⟩ => exact (mm_score_r0 _ _).trans hk
    | ⟨1, _⟩ => exact mm_score_r1 _ _)
  rw [el, er]

theorem mm_mass_l0 (j : S1024x256.Idx) (q : dot_S1024x256_S256x256_S1024x256_1_0_0_1_n_n.contr.Idx) : (dot_S1024x256_S256x256_S1024x256_1_0_0_1_n_n.lhsIdx j q 0).val = (j 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mm_mass_l1 (j : S1024x256.Idx) (q : dot_S1024x256_S256x256_S1024x256_1_0_0_1_n_n.contr.Idx) : (dot_S1024x256_S256x256_S1024x256_1_0_0_1_n_n.lhsIdx j q 1).val = (q ⟨0, by decide⟩).val :=
  dot_S1024x256_S256x256_S1024x256_1_0_0_1_n_n.lhsIdx_val_of_single rfl j q
theorem mm_mass_r0 (j : S1024x256.Idx) (q : dot_S1024x256_S256x256_S1024x256_1_0_0_1_n_n.contr.Idx) : (dot_S1024x256_S256x256_S1024x256_1_0_0_1_n_n.rhsIdx j q 0).val = (q ⟨0, by decide⟩).val :=
  dot_S1024x256_S256x256_S1024x256_1_0_0_1_n_n.rhsIdx_val_of_single rfl j q
theorem mm_mass_r1 (j : S1024x256.Idx) (q : dot_S1024x256_S256x256_S1024x256_1_0_0_1_n_n.contr.Idx) : (dot_S1024x256_S256x256_S1024x256_1_0_0_1_n_n.rhsIdx j q 1).val = (j 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- An entry of the 1024×256 by 256×256 product into a zero accumulator: the sum over the shared axis. -/
theorem mm_mass (lhs : FVec Ideal S1024x256 .bf16) (rhs : FVec Ideal S256x256 .bf16) (p : Fin 1024) (c : Fin 256) :
    matmul dot_S1024x256_S256x256_S1024x256_1_0_0_1_n_n none lhs rhs (constant S1024x256 .f32 0x00000000#32) (ix2 p c)
      = ∑ k : Fin 256, lhs (ix2 p k) * rhs (ix2 k c) := by
  refine (Ideal.matmul_constant_zero_apply dot_S1024x256_S256x256_S1024x256_1_0_0_1_n_n none lhs rhs (ix2 p c)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p c) ((contrEquiv1 dot_S1024x256_S256x256_S1024x256_1_0_0_1_n_n 256 rfl rfl).symm k) = ix2 p k := funext fun a => Fin.ext (by
    match a with
    | ⟨0, _⟩ => exact mm_mass_l0 _ _
    | ⟨1, _⟩ => exact (mm_mass_l1 _ _).trans hk)
  have er : dot_S1024x256_S256x256_S1024x256_1_0_0_1_n_n.rhsIdx (ix2 p c) ((contrEquiv1 dot_S1024x256_S256x256_S1024x256_1_0_0_1_n_n 256 rfl rfl).symm k) = ix2 k c := funext fun a => Fin.ext (by
    match a with
    | ⟨0, _⟩ => exact (mm_mass_r0 _ _).trans hk
    | ⟨1, _⟩ => exact mm_mass_r1 _ _)
  rw [el, er]

theorem mm_back_l0 (j : S1024x512.Idx) (q : dot_S1024x256_S256x512_S1024x512_1_0_0_1_n_n.contr.Idx) : (dot_S1024x256_S256x512_S1024x512_1_0_0_1_n_n.lhsIdx j q 0).val = (j 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem mm_back_l1 (j : S1024x512.Idx) (q : dot_S1024x256_S256x512_S1024x512_1_0_0_1_n_n.contr.Idx) : (dot_S1024x256_S256x512_S1024x512_1_0_0_1_n_n.lhsIdx j q 1).val = (q ⟨0, by decide⟩).val :=
  dot_S1024x256_S256x512_S1024x512_1_0_0_1_n_n.lhsIdx_val_of_single rfl j q
theorem mm_back_r0 (j : S1024x512.Idx) (q : dot_S1024x256_S256x512_S1024x512_1_0_0_1_n_n.contr.Idx) : (dot_S1024x256_S256x512_S1024x512_1_0_0_1_n_n.rhsIdx j q 0).val = (q ⟨0, by decide⟩).val :=
  dot_S1024x256_S256x512_S1024x512_1_0_0_1_n_n.rhsIdx_val_of_single rfl j q
theorem mm_back_r1 (j : S1024x512.Idx) (q : dot_S1024x256_S256x512_S1024x512_1_0_0_1_n_n.contr.Idx) : (dot_S1024x256_S256x512_S1024x512_1_0_0_1_n_n.rhsIdx j q 1).val = (j 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- An entry of the 1024×256 by 256×512 product into a zero accumulator: the sum over the shared axis. -/
theorem mm_back (lhs : FVec Ideal S1024x256 .bf16) (rhs : FVec Ideal S256x512 .bf16) (p : Fin 1024) (c : Fin 512) :
    matmul dot_S1024x256_S256x512_S1024x512_1_0_0_1_n_n none lhs rhs (constant S1024x512 .f32 0x00000000#32) (ix2 p c)
      = ∑ k : Fin 256, lhs (ix2 p k) * rhs (ix2 k c) := by
  refine (Ideal.matmul_constant_zero_apply dot_S1024x256_S256x512_S1024x512_1_0_0_1_n_n none lhs rhs (ix2 p c)).trans ?_
  rw [← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p c) ((contrEquiv1 dot_S1024x256_S256x512_S1024x512_1_0_0_1_n_n 256 rfl rfl).symm k) = ix2 p k := funext fun a => Fin.ext (by
    match a with
    | ⟨0, _⟩ => exact mm_back_l0 _ _
    | ⟨1, _⟩ => exact (mm_back_l1 _ _).trans hk)
  have er : dot_S1024x256_S256x512_S1024x512_1_0_0_1_n_n.rhsIdx (ix2 p c) ((contrEquiv1 dot_S1024x256_S256x512_S1024x512_1_0_0_1_n_n 256 rfl rfl).symm k) = ix2 k c := funext fun a => Fin.ext (by
    match a with
    | ⟨0, _⟩ => exact (mm_back_r0 _ _).trans hk
    | ⟨1, _⟩ => exact mm_back_r1 _ _)
  rw [el, er]

theorem mm_out_l0 (j : S1024x512.Idx) (q : dot_S1024x2048_S2048x512_S1024x512_1_0_0_1_n_n.contr.Idx) : (dot_S1024x2048_S2048x512_S1024x512_1_0_0_1_n_n.lhsIdx j q 0).val = (j 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem mm_out_l1 (j : S1024x512.Idx) (q : dot_S1024x2048_S2048x512_S1024x512_1_0_0_1_n_n.contr.Idx) : (dot_S1024x2048_S2048x512_S1024x512_1_0_0_1_n_n.lhsIdx j q 1).val = (q ⟨0, by decide⟩).val :=
  dot_S1024x2048_S2048x512_S1024x512_1_0_0_1_n_n.lhsIdx_val_of_single rfl j q
theorem mm_out_r0 (j : S1024x512.Idx) (q : dot_S1024x2048_S2048x512_S1024x512_1_0_0_1_n_n.contr.Idx) : (dot_S1024x2048_S2048x512_S1024x512_1_0_0_1_n_n.rhsIdx j q 0).val = (q ⟨0, by decide⟩).val :=
  dot_S1024x2048_S2048x512_S1024x512_1_0_0_1_n_n.rhsIdx_val_of_single rfl j q
theorem mm_out_r1 (j : S1024x512.Idx) (q : dot_S1024x2048_S2048x512_S1024x512_1_0_0_1_n_n.contr.Idx) : (dot_S1024x2048_S2048x512_S1024x512_1_0_0_1_n_n.rhsIdx j q 1).val = (j 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- An entry of the 1024×2048 by 2048×512 product into a zero accumulator: the sum over the shared axis. -/
theorem mm_out (lhs : FVec Ideal S1024x2048 .bf16) (rhs : FVec Ideal S2048x512 .bf16) (p : Fin 1024) (c : Fin 512) :
    matmul dot_S1024x2048_S2048x512_S1024x512_1_0_0_1_n_n none lhs rhs (constant S1024x512 .f32 0x00000000#32) (ix2 p c)
      = ∑ k : Fin 2048, lhs (ix2 p k) * rhs (ix2 k c) := by
  refine (Ideal.matmul_constant_zero_apply dot_S1024x2048_S2048x512_S1024x512_1_0_0_1_n_n none lhs rhs (ix2 p c)).trans ?_
  rw [← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p c) ((contrEquiv1 dot_S1024x2048_S2048x512_S1024x512_1_0_0_1_n_n 2048 rfl rfl).symm k) = ix2 p k := funext fun a => Fin.ext (by
    match a with
    | ⟨0, _⟩ => exact mm_out_l0 _ _
    | ⟨1, _⟩ => exact (mm_out_l1 _ _).trans hk)
  have er : dot_S1024x2048_S2048x512_S1024x512_1_0_0_1_n_n.rhsIdx (ix2 p c) ((contrEquiv1 dot_S1024x2048_S2048x512_S1024x512_1_0_0_1_n_n 2048 rfl rfl).symm k) = ix2 k c := funext fun a => Fin.ext (by
    match a with
    | ⟨0, _⟩ => exact (mm_out_r0 _ _).trans hk
    | ⟨1, _⟩ => exact mm_out_r1 _ _)
  rw [el, er]

/-- The maximum down the rows, read at column `q`. -/
theorem colmax_apply (v : FVec Ideal S1024x256 .f32) (acc : BitVec 32) (h : S1024x256.Reduces [0] S256)
    (hφ : FKind.Formats .f32) (hacc : acc = FKind.maximumf.neutral .f32 hφ) (q : Fin 256) :
    multiReduction .maximumf [0] S256 v acc h hφ hacc (ix1 q)
      = (Finset.univ : Finset (Fin 1024)).fold max (Ideal.ofBits .f32 acc) fun n => v (ix2 n q) :=
  Cert.Lib.ColumnReduce.max_axis0_apply v acc h hφ hacc q

/-- The sum down the rows, read at column `q`. -/
theorem colsum_apply (v : FVec Ideal S1024x256 .f32) (acc : BitVec 32) (h : S1024x256.Reduces [0] S256)
    (hφ : FKind.Formats .f32) (hacc : acc = FKind.add.neutral .f32 hφ) (q : Fin 256) :
    multiReduction .add [0] S256 v acc h hφ hacc (ix1 q) = ∑ n : Fin 1024, v (ix2 n q) :=
  Cert.Lib.ColumnReduce.sum_axis0_apply v acc h hφ hacc q

end Cert.KernelIdeal.Ops

end
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.Spec.lean ====
/-
  The function both programs compute, over the extended reals, index by index.

  For a batch `b`, a row `n` of the sequence, a head `h` and a memory slot `s`:
    hidden   b n j     = Σ_e x[b,n,e] · W_in[e,j] + b_in[j]                       (j a flat column of 2048 = 16 heads × 128)
    score    b h n s   = Σ_d hidden b n (h·128+d) · W_mk[d,s] + b_mk[s]
    top      b h s     = the largest score over the rows n (a fold of max from -∞)
    weight   b h n s   = exp (score − top)
    total    b h s     = Σ_n weight
    soft     b h n s   = weight / total                                            (softmax along the sequence)
    mass     b h n     = Σ_s soft b h n s + ε
    share    b h n s   = soft / mass                                               (L1 normalisation over the slots)
    back     b n h d   = Σ_s share b h n s · W_mv[s,d] + b_mv[d]
    result   b n e     = Σ_j back b n (j/128) (j%128) · W_out[j,e] + b_out[e]
  The division is the extended reals' (`Ideal.div`), the exponential `Ideal.exp`, ε the value of the f32 word 0x3089705F.
-/
import Idealize.ShloMosaic.PureOps.Ideal
import Idealize.ShloMosaic.Lib.ValueIdx
import proofs.«169363_j8134668059232_2_alg».proof.Proof.LibBlockRuns

noncomputable section

namespace Cert.Spec

open Idealize.ShloMosaic Idealize.ShloMosaic.ValueIdx

/-- Lane `d` of head `h` among the 2048 hidden columns. -/
def col128 (h : Fin 16) (d : Fin 128) : Fin 2048 := ⟨h.val * 128 + d.val, by have := h.isLt; have := d.isLt; omega⟩
/-- Slot `s` of head `h` among the 256 packed score columns. -/
def col16 (h : Fin 16) (s : Fin 16) : Fin 256 := ⟨h.val * 16 + s.val, by have := h.isLt; have := s.isLt; omega⟩
/-- The head a hidden column belongs to, and its lane. -/
def head128 (j : Fin 2048) : Fin 16 := ⟨j.val / 128, by have := j.isLt; omega⟩
def lane128 (j : Fin 2048) : Fin 128 := ⟨j.val % 128, Nat.mod_lt _ (by decide)⟩
/-- The head a packed score column belongs to, and its slot. -/
def head16 (c : Fin 256) : Fin 16 := ⟨c.val / 16, by have := c.isLt; omega⟩
def slot16 (c : Fin 256) : Fin 16 := ⟨c.val % 16, Nat.mod_lt _ (by decide)⟩

/-- The starting value of the maximum: the f32 word of -∞. -/
abbrev negInf : EReal := Ideal.ofBits .f32 0xFF800000#32
/-- The L1 normalisation's ε: the f32 word nearest 1e-9. -/
abbrev eps : EReal := Ideal.ofBits .f32 0x3089705F#32

section
variable (x : Fin 32 → Fin 1024 → Fin 512 → EReal) (Win : Fin 512 → Fin 2048 → EReal) (bin : Fin 2048 → EReal)
  (Wmk : Fin 128 → Fin 16 → EReal) (bmk : Fin 16 → EReal) (Wmv : Fin 16 → Fin 128 → EReal) (bmv : Fin 128 → EReal)
  (Wout : Fin 2048 → Fin 512 → EReal) (bout : Fin 512 → EReal)

def hidden (b : Fin 32) (n : Fin 1024) (j : Fin 2048) : EReal := (∑ e : Fin 512, x b n e * Win e j) + bin j

def score (b : Fin 32) (h : Fin 16) (n : Fin 1024) (s : Fin 16) : EReal :=
  (∑ d : Fin 128, hidden x Win bin b n (col128 h d) * Wmk d s) + bmk s

def top (b : Fin 32) (h : Fin 16) (s : Fin 16) : EReal :=
  (Finset.univ : Finset (Fin 1024)).fold max negInf fun n => score x Win bin Wmk bmk b h n s

def weight (b : Fin 32) (h : Fin 16) (n : Fin 1024) (s : Fin 16) : EReal :=
  Ideal.exp (score x Win bin Wmk bmk b h n s - top x Win bin Wmk bmk b h s)

def total (b : Fin 32) (h : Fin 16) (s : Fin 16) : EReal := ∑ n : Fin 1024, weight x Win bin Wmk bmk b h n s

def soft (b : Fin 32) (h : Fin 16) (n : Fin 1024) (s : Fin 16) : EReal :=
  Ideal.div (weight x Win bin Wmk bmk b h n s) (total x Win bin Wmk bmk b h s)

def mass (b : Fin 32) (h : Fin 16) (n : Fin 1024) : EReal := (∑ s : Fin 16, soft x Win bin Wmk bmk b h n s) + eps

def share (b : Fin 32) (h : Fin 16) (n : Fin 1024) (s : Fin 16) : EReal :=
  Ideal.div (soft x Win bin Wmk bmk b h n s) (mass x Win bin Wmk bmk b h n)

def back (b : Fin 32) (n : Fin 1024) (h : Fin 16) (d : Fin 128) : EReal :=
  (∑ s : Fin 16, share x Win bin Wmk bmk b h n s * Wmv s d) + bmv d

def result (b : Fin 32) (n : Fin 1024) (e : Fin 512) : EReal :=
  (∑ j : Fin 2048, back x Win bin Wmk bmk Wmv bmv b n (head128 j) (lane128 j) * Wout j e) + bout e

end

/-- The result array as one function of the nine argument arrays. -/
def G (a0 : (⟨3, ![32, 1024, 512]⟩ : Shape).Idx → EReal) (a1 : (⟨2, ![512, 2048]⟩ : Shape).Idx → EReal)
    (a2 : (⟨1, ![2048]⟩ : Shape).Idx → EReal) (a3 : (⟨2, ![128, 16]⟩ : Shape).Idx → EReal)
    (a4 : (⟨1, ![16]⟩ : Shape).Idx → EReal) (a5 : (⟨2, ![16, 128]⟩ : Shape).Idx → EReal)
    (a6 : (⟨1, ![128]⟩ : Shape).Idx → EReal) (a7 : (⟨2, ![2048, 512]⟩ : Shape).Idx → EReal)
    (a8 : (⟨1, ![512]⟩ : Shape).Idx → EReal) : (⟨3, ![32, 1024, 512]⟩ : Shape).Idx → EReal :=
  fun i => result (fun b n e => a0 (ix3 b n e)) (fun e j => a1 (ix2 e j)) (fun j => a2 (ix1 j))
    (fun d s => a3 (ix2 d s)) (fun s => a4 (ix1 s)) (fun s d => a5 (ix2 s d)) (fun d => a6 (ix1 d))
    (fun j e => a7 (ix2 j e)) (fun e => a8 (ix1 e)) (i 0) (i 1) (i 2)

theorem G_apply (a0 a1 a2 a3 a4 a5 a6 a7 a8) (b : Fin 32) (n : Fin 1024) (e : Fin 512) :
    G a0 a1 a2 a3 a4 a5 a6 a7 a8 (ix3 b n e)
      = result (fun b n e => a0 (ix3 b n e)) (fun e j => a1 (ix2 e j)) (fun j => a2 (ix1 j))
          (fun d s => a3 (ix2 d s)) (fun s => a4 (ix1 s)) (fun s d => a5 (ix2 s d)) (fun d => a6 (ix1 d))
          (fun j e => a7 (ix2 j e)) (fun e => a8 (ix1 e)) b n e := rfl

/-! ## Sums over a block-diagonal factor

  The kernel packs the sixteen heads' small matrices into one block-diagonal matrix, so each of its contractions runs
  over every (head, lane) pair with a factor that vanishes off the diagonal block.  Such a sum is the sum over the one
  surviving block (LibBlockRuns.lean, restated here at literal index terms). -/

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f ⟨a.val * B + r.val, by
      subst hN; have := a.isLt; have := r.isLt; nlinarith⟩ :=
  Cert.Lib.BlockRuns.sum_runs A B N hN f

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f ⟨a0.val * B + r.val, by subst hN; have := a0.isLt; have := r.isLt; nlinarith⟩ = g r)
    (hout : ∀ (a : Fin A) (r : Fin B), a ≠ a0 →
      f ⟨a.val * B + r.val, by subst hN; have := a.isLt; have := r.isLt; nlinarith⟩ = 0) :
    ∑ k : Fin N, f k = ∑ r : Fin B, g r :=
  Cert.Lib.BlockRuns.sum_one_run A B N hN f g a0 hin hout

end Cert.Spec

end
-- ==== Proof.Packed.lean ====
/-
  The kernel's own arrangement of the computation, for one batch: all sixteen heads side by side in flat columns.

  Over the batch's rows `X` (1024 × 512) and matrices given as plain functions:
    pHidden n j = Σ_e X n e · W1 e j + B1 j                   (1024 × 2048)
    pScore  n q = Σ_k pHidden n k · W3 k q + B4 q              (1024 × 256; the contraction runs over ALL 2048 columns)
    pTop    q   = the largest pScore over the rows n
    pWeight n q = exp (pScore n q − pTop q)
    pTotal  q   = Σ_n pWeight n q
    pSoft   n q = pWeight / pTotal
    pMass   n q = Σ_r pSoft n r · W7 r q + ε                   (W7 sums the slots of q's head)
    pShare  n q = pSoft / pMass
    pBack   n j = Σ_q pShare n q · W5 q j + B6 j               (1024 × 2048)
    pOut    n e = Σ_j pBack n j · W8 j e + B9 e                (1024 × 512)
  When W3, W5, W7 are block diagonal (the identity of the heads times a small matrix) and B4, B6 repeat a small bias
  head by head, this is `Spec.result` for that batch (Collapse.lean).
-/
import proofs.«169363_j8134668059232_2_alg».proof.Proof.Spec

noncomputable section

namespace Cert.Packed

open Idealize.ShloMosaic Cert.Spec

section
variable (X : Fin 1024 → Fin 512 → EReal) (W1 : Fin 512 → Fin 2048 → EReal) (B1 : Fin 2048 → EReal)
  (W3 : Fin 2048 → Fin 256 → EReal) (B4 : Fin 256 → EReal) (W5 : Fin 256 → Fin 2048 → EReal) (B6 : Fin 2048 → EReal)
  (W7 : Fin 256 → Fin 256 → EReal) (W8 : Fin 2048 → Fin 512 → EReal) (B9 : Fin 512 → EReal)

def pHidden (n : Fin 1024) (j : Fin 2048) : EReal := (∑ e : Fin 512, X n e * W1 e j) + B1 j

def pScore (n : Fin 1024) (q : Fin 256) : EReal := (∑ k : Fin 2048, pHidden X W1 B1 n k * W3 k q) + B4 q

def pTop (q : Fin 256) : EReal :=
  (Finset.univ : Finset (Fin 1024)).fold max negInf fun n => pScore X W1 B1 W3 B4 n q

def pWeight (n : Fin 1024) (q : Fin 256) : EReal := Ideal.exp (pScore X W1 B1 W3 B4 n q - pTop X W1 B1 W3 B4 q)

def pTotal (q : Fin 256) : EReal := ∑ n : Fin 1024, pWeight X W1 B1 W3 B4 n q

def pSoft (n : Fin 1024) (q : Fin 256) : EReal := Ideal.div (pWeight X W1 B1 W3 B4 n q) (pTotal X W1 B1 W3 B4 q)

def pMass (n : Fin 1024) (q : Fin 256) : EReal := (∑ r : Fin 256, pSoft X W1 B1 W3 B4 n r * W7 r q) + eps

def pShare (n : Fin 1024) (q : Fin 256) : EReal := Ideal.div (pSoft X W1 B1 W3 B4 n q) (pMass X W1 B1 W3 B4 W7 n q)

def pBack (n : Fin 1024) (j : Fin 2048) : EReal := (∑ q : Fin 256, pShare X W1 B1 W3 B4 W7 n q * W5 q j) + B6 j

def pOut (n : Fin 1024) (e : Fin 512) : EReal := (∑ j : Fin 2048, pBack X W1 B1 W3 B4 W5 B6 W7 n j * W8 j e) + B9 e

end

end Cert.Packed

end
-- ==== Proof.KChunks.lean ====
/-
  The body's payloads read at an entry, over the extended reals.

  A chunk of a projection is a matrix product plus a row bias broadcast down the rows.  Between the two scratch buffers
  the body computes, from the hidden matrix `H` it reads back, the packed scores `H · W3 + B4`, their softmax down the
  rows, the per-head L1 mass through the block matrix `W7`, and the shares; at the end the out-projection of the matrix
  it reads back from the second scratch buffer.
-/
import proofs.«169363_j8134668059232_2_alg».proof.Proof.Gen.KernelIdeal.Skeleton
import proofs.«169363_j8134668059232_2_alg».proof.Proof.KOps
import proofs.«169363_j8134668059232_2_alg».proof.Proof.Packed

set_option maxRecDepth 16384

noncomputable section

namespace Cert.KernelIdeal.Body

open Cert.KernelIdeal Cert.KernelIdeal.Gen Cert.KernelIdeal.Ops Idealize.ShloMosaic Idealize.ShloMosaic.ValueIdx

/-! ## The staged blocks as plain matrices -/

/-- The point's rows of the input. -/
def mX (x0 : Vec Ideal S1x1024x512 .f32) : Fin 1024 → Fin 512 → EReal := fun n e => x0 (ix3 (0 : Fin 1) n e)
def mW1 (x1 : Vec Ideal S512x2048 .bf16) : Fin 512 → Fin 2048 → EReal := fun e j => x1 (ix2 e j)
def mB1 (x2 : Vec Ideal S1x2048 .f32) : Fin 2048 → EReal := fun j => x2 (ix2 (0 : Fin 1) j)
def mW3 (x3 : Vec Ideal S2048x256 .bf16) : Fin 2048 → Fin 256 → EReal := fun k q => x3 (ix2 k q)
def mB4 (x4 : Vec Ideal S1x256 .f32) : Fin 256 → EReal := fun q => x4 (ix2 (0 : Fin 1) q)
def mW5 (x5 : Vec Ideal S256x2048 .bf16) : Fin 256 → Fin 2048 → EReal := fun q j => x5 (ix2 q j)
def mB6 (x6 : Vec Ideal S1x2048 .f32) : Fin 2048 → EReal := fun j => x6 (ix2 (0 : Fin 1) j)
def mW7 (x7 : Vec Ideal S256x256 .bf16) : Fin 256 → Fin 256 → EReal := fun r q => x7 (ix2 r q)
def mW8 (x8 : Vec Ideal S2048x512 .bf16) : Fin 2048 → Fin 512 → EReal := fun j e => x8 (ix2 j e)
def mB9 (x9 : Vec Ideal S1x512 .f32) : Fin 512 → EReal := fun e => x9 (ix2 (0 : Fin 1) e)

/-! ## A load of a column range -/

/-- A load of `w` columns from column `o` of an `a × b` block reads, at `(p, j)`, the block at `(p, o + j)`. -/
theorem ld_cols {Val : EltTy → Type} {e' : EltTy} {a b w : ℕ} (o : ℕ) (X : (⟨2, ![a, b]⟩ : Shape).Idx → Val e')
    (inb : ∀ ax, (![0, o] : Fin 2 → ℕ) ax + (![a, w] : Fin 2 → ℕ) ax ≤ (⟨2, ![a, b]⟩ : Shape).size ax)
    (p : Fin a) (j : Fin w) (k : Fin b) (hk : k.val = o + j.val) :
    View.ld (Val := Val) X (Rect.unit (s := ⟨2, ![a, b]⟩) ![0, o] ![a, w] inb) (ix2 p j) = X (ix2 p k) := by
  show X ((Rect.unit (s := ⟨2, ![a, b]⟩) ![0, o] ![a, w] inb).idx (ix2 p j)) = X (ix2 p k)
  refine congrArg X (funext fun ax => Fin.ext ?_)
  match ax with
  | ⟨0, _⟩ => show 0 + 1 * p.val = p.val; omega
  | ⟨1, _⟩ => show o + 1 * j.val = k.val; omega

/-! ## A chunk of a projection -/

/-- The point's rows, as the first projection's left operand. -/
theorem rows_apply (x0 : Vec Ideal S1x1024x512 .f32) (n : Fin 1024) (e : Fin 512) : k0_pay3 x0 (ix2 n e) = mX x0 n e := by
  unfold k0_pay3
  exact shapeCast_1ab_ab_apply x0 shapeCasts_S1x1024x512_S1024x512 n e

/-- A 512-column chunk of the in-projection: rows times the chunk's weights, plus the chunk's bias. -/
theorem inproj_apply (xr : FVec Ideal S1024x512 .bf16) (w : Vec Ideal S512x512 .bf16) (bb : Vec Ideal S1x512 .f32)
    (n : Fin 1024) (j : Fin 512) :
    addf (matmul dot_S1024x512_S512x512_S1024x512_1_0_0_1_n_n none xr (shapeCast S512x512 w shapeCasts_S512x512_S512x512 : FVec Ideal S512x512 .bf16)
        (constant S1024x512 .f32 0x00000000#32))
      (broadcastTo S1024x512 (shapeCast S1x512 bb shapeCasts_S1x512_S1x512 : FVec Ideal S1x512 .f32) broadcasts_S1x512_S1024x512) (ix2 n j)
      = (∑ e : Fin 512, xr (ix2 n e) * w (ix2 e j)) + bb (ix2 (0 : Fin 1) j) := by
  rw [addf_apply, mm_inproj, broadcastTo_1b_ab_apply, shapeCast_self, shapeCast_self]

/-- A 512-column chunk of the back-projection. -/
theorem backproj_apply (s : FVec Ideal S1024x256 .bf16) (w : Vec Ideal S256x512 .bf16) (bb : Vec Ideal S1x512 .f32)
    (n : Fin 1024) (j : Fin 512) :
    addf (matmul dot_S1024x256_S256x512_S1024x512_1_0_0_1_n_n none s (shapeCast S256x512 w shapeCasts_S256x512_S256x512 : FVec Ideal S256x512 .bf16)
        (constant S1024x512 .f32 0x00000000#32))
      (broadcastTo S1024x512 (shapeCast S1x512 bb shapeCasts_S1x512_S1x512 : FVec Ideal S1x512 .f32) broadcasts_S1x512_S1024x512) (ix2 n j)
      = (∑ q : Fin 256, s (ix2 n q) * w (ix2 q j)) + bb (ix2 (0 : Fin 1) j) := by
  rw [addf_apply, mm_back, broadcastTo_1b_ab_apply, shapeCast_self, shapeCast_self]

theorem pay4_apply (x0 : Vec Ideal S1x1024x512 .f32) (w : Vec Ideal S512x512 .bf16) (bb : Vec Ideal S1x512 .f32) (n : Fin 1024) (j : Fin 512) :
    k0_pay4 x0 w bb (ix2 n j) = (∑ e : Fin 512, mX x0 n e * w (ix2 e j)) + bb (ix2 (0 : Fin 1) j) := by
  unfold k0_pay4
  rw [shapeCast_self]
  refine (inproj_apply (k0_pay3 x0) w bb n j).trans ?_
  simp only [rows_apply]

theorem pay5_apply (x0 : Vec Ideal S1x1024x512 .f32) (w : Vec Ideal S512x512 .bf16) (bb : Vec Ideal S1x512 .f32) (n : Fin 1024) (j : Fin 512) :
    k0_pay5 x0 w bb (ix2 n j) = (∑ e : Fin 512, mX x0 n e * w (ix2 e j)) + bb (ix2 (0 : Fin 1) j) := by
  unfold k0_pay5
  rw [shapeCast_self]
  refine (inproj_apply (k0_pay3 x0) w bb n j).trans ?_
  simp only [rows_apply]

theorem pay76_apply (x0 : Vec Ideal S1x1024x512 .f32) (w : Vec Ideal S512x512 .bf16) (bb : Vec Ideal S1x512 .f32) (n : Fin 1024) (j : Fin 512) :
    k0_pay7 (k0_pay6 x0 w bb) (ix2 n j) = (∑ e : Fin 512, mX x0 n e * w (ix2 e j)) + bb (ix2 (0 : Fin 1) j) := by
  unfold k0_pay7 k0_pay6
  rw [shapeCast_self]
  refine (inproj_apply (k0_pay3 x0) w bb n j).trans ?_
  simp only [rows_apply]

theorem pay83_apply (x0 : Vec Ideal S1x1024x512 .f32) (w : Vec Ideal S512x512 .bf16) (bb : Vec Ideal S1x512 .f32) (n : Fin 1024) (j : Fin 512) :
    k0_pay8 (k0_pay3 x0) w bb (ix2 n j) = (∑ e : Fin 512, mX x0 n e * w (ix2 e j)) + bb (ix2 (0 : Fin 1) j) := by
  unfold k0_pay8
  rw [shapeCast_self]
  refine (inproj_apply (k0_pay3 x0) w bb n j).trans ?_
  simp only [rows_apply]

/-! ## The back-projection's chunks -/

theorem share16_apply (s : FVec Ideal S1024x256 .f32) (n : Fin 1024) (q : Fin 256) : k0_pay10 s (ix2 n q) = s (ix2 n q) := rfl

theorem pay11_apply (s : FVec Ideal S1024x256 .f32) (w : Vec Ideal S256x512 .bf16) (bb : Vec Ideal S1x512 .f32) (n : Fin 1024) (j : Fin 512) :
    k0_pay11 s w bb (ix2 n j) = (∑ q : Fin 256, s (ix2 n q) * w (ix2 q j)) + bb (ix2 (0 : Fin 1) j) := by
  unfold k0_pay11
  rw [shapeCast_self]
  refine (backproj_apply (k0_pay10 s) w bb n j).trans ?_
  simp only [share16_apply]

theorem pay12_apply (s : FVec Ideal S1024x256 .f32) (w : Vec Ideal S256x512 .bf16) (bb : Vec Ideal S1x512 .f32) (n : Fin 1024) (j : Fin 512) :
    k0_pay12 s w bb (ix2 n j) = (∑ q : Fin 256, s (ix2 n q) * w (ix2 q j)) + bb (ix2 (0 : Fin 1) j) := by
  unfold k0_pay12
  rw [shapeCast_self]
  refine (backproj_apply (k0_pay10 s) w bb n j).trans ?_
  simp only [share16_apply]

theorem pay13_apply (s : FVec Ideal S1024x256 .f32) (w : Vec Ideal S256x512 .bf16) (bb : Vec Ideal S1x512 .f32) (n : Fin 1024) (j : Fin 512) :
    k0_pay13 s w bb (ix2 n j) = (∑ q : Fin 256, s (ix2 n q) * w (ix2 q j)) + bb (ix2 (0 : Fin 1) j) := by
  unfold k0_pay13
  rw [shapeCast_self]
  refine (backproj_apply (k0_pay10 s) w bb n j).trans ?_
  simp only [share16_apply]

theorem pay1_apply (s : FVec Ideal S1024x256 .f32) (w : Vec Ideal S256x512 .bf16) (bb : Vec Ideal S1x512 .f32) (n : Fin 1024) (j : Fin 512) :
    k0_pay1 (k0_pay10 s) w bb (ix2 n j) = (∑ q : Fin 256, s (ix2 n q) * w (ix2 q j)) + bb (ix2 (0 : Fin 1) j) := by
  unfold k0_pay1
  rw [shapeCast_self]
  refine (backproj_apply (k0_pay10 s) w bb n j).trans ?_
  simp only [share16_apply]

/-! ## From the hidden matrix to the shares -/

section
variable (H : Fin 1024 → Fin 2048 → EReal) (W3 : Fin 2048 → Fin 256 → EReal) (B4 : Fin 256 → EReal) (W7 : Fin 256 → Fin 256 → EReal)

/-- The packed scores of a hidden matrix `H`. -/
def sScore (n : Fin 1024) (q : Fin 256) : EReal := (∑ k : Fin 2048, H n k * W3 k q) + B4 q
def sTop (q : Fin 256) : EReal := (Finset.univ : Finset (Fin 1024)).fold max Spec.negInf fun n => sScore H W3 B4 n q
def sWeight (n : Fin 1024) (q : Fin 256) : EReal := Ideal.exp (sScore H W3 B4 n q - sTop H W3 B4 q)
def sTotal (q : Fin 256) : EReal := ∑ n : Fin 1024, sWeight H W3 B4 n q
def sSoft (n : Fin 1024) (q : Fin 256) : EReal := Ideal.div (sWeight H W3 B4 n q) (sTotal H W3 B4 q)
def sMass (n : Fin 1024) (q : Fin 256) : EReal := (∑ r : Fin 256, sSoft H W3 B4 n r * W7 r q) + Spec.eps
def sShare (n : Fin 1024) (q : Fin 256) : EReal := Ideal.div (sSoft H W3 B4 n q) (sMass H W3 B4 W7 n q)
end

/-- Over the in-projection's matrix these are the packed form's shares. -/
theorem sShare_hidden (X : Fin 1024 → Fin 512 → EReal) (W1 : Fin 512 → Fin 2048 → EReal) (B1 : Fin 2048 → EReal)
    (W3 : Fin 2048 → Fin 256 → EReal) (B4 : Fin 256 → EReal) (W7 : Fin 256 → Fin 256 → EReal) :
    sShare (Packed.pHidden X W1 B1) W3 B4 W7 = Packed.pShare X W1 B1 W3 B4 W7 := rfl

theorem exp_apply {s : Shape} {φ : FTy} (x : FVec Ideal s φ) (i : s.Idx) : exp x i = Ideal.exp (x i) := rfl

/-- The column maximum and column sum as the body spells them: from the words of -∞ and of zero. -/
theorem colmax_lit (v : FVec Ideal S1024x256 .f32) (h : S1024x256.Reduces [0] S256) (hφ : FTy.f32 = FTy.f32 ∨ FTy.f32 = FTy.bf16)
    (hacc : (0xFF800000#32 : BitVec 32) = 0xFF800000#32) (q : Fin 256) :
    multiReduction .maximumf [0] S256 v 0xFF800000#32 h hφ hacc (ix1 q)
      = (Finset.univ : Finset (Fin 1024)).fold max (Ideal.ofBits .f32 0xFF800000#32) fun n => v (ix2 n q) :=
  colmax_apply v 0xFF800000#32 h hφ hacc q

theorem colsum_lit (v : FVec Ideal S1024x256 .f32) (h : S1024x256.Reduces [0] S256) (hφ : FTy.f32 = FTy.f32 ∨ FTy.f32 = FTy.bf16)
    (hacc : (0x00000000#32 : BitVec 32) = 0x00000000#32) (q : Fin 256) :
    multiReduction .add [0] S256 v 0x00000000#32 h hφ hacc (ix1 q) = ∑ n : Fin 1024, v (ix2 n q) :=
  colsum_apply v 0x00000000#32 h hφ hacc q

/-! The body's arithmetic between the two scratch buffers, stage by stage. -/

/-- The packed scores: the hidden matrix read back, times the packed score weights, plus the packed bias. -/
def stScore (v47 : Vec Ideal S1024x2048 .bf16) (x3 : Vec Ideal S2048x256 .bf16) (x4 : Vec Ideal S1x256 .f32) : FVec Ideal S1024x256 .f32 :=
  addf (matmul (φ₁ := .bf16) (φ₂ := .bf16) dot_S1024x2048_S2048x256_S1024x256_1_0_0_1_n_n none v47 (shapeCast S2048x256 x3 shapeCasts_S2048x256_S2048x256 : FVec Ideal S2048x256 .bf16)
      (constant S1024x256 .f32 0x00000000#32))
    (broadcastTo S1024x256 (shapeCast S1x256 x4 shapeCasts_S1x256_S1x256 : FVec Ideal S1x256 .f32) broadcasts_S1x256_S1024x256)

/-- The exponentials of the scores less their column maximum. -/
def stWeight (v54 : FVec Ideal S1024x256 .f32) : FVec Ideal S1024x256 .f32 :=
  exp (subf v54 (broadcastTo S1024x256
    (shapeCast S1x256 (multiReduction .maximumf [0] S256 v54 0xFF800000#32 reduces_S1024x256_S256 (.inl rfl) rfl) shapeCasts_S256_S1x256 : FVec Ideal S1x256 .f32)
    broadcasts_S1x256_S1024x256))

/-- Each weight over its column's sum. -/
def stSoft (v59 : FVec Ideal S1024x256 .f32) : FVec Ideal S1024x256 .f32 :=
  divf v59 (broadcastTo S1024x256
    (shapeCast S1x256 (multiReduction .add [0] S256 v59 0x00000000#32 reduces_S1024x256_S256 (.inl rfl) rfl) shapeCasts_S256_S1x256 : FVec Ideal S1x256 .f32)
    broadcasts_S1x256_S1024x256)

/-- Each soft weight over its head's mass plus ε. -/
def stShare (v63 : FVec Ideal S1024x256 .f32) (x7 : Vec Ideal S256x256 .bf16) : FVec Ideal S1024x256 .f32 :=
  divf v63 (addf
    (matmul (φ₁ := .bf16) (φ₂ := .bf16) dot_S1024x256_S256x256_S1024x256_1_0_0_1_n_n none (truncf .bf16 v63 bitsLt_bf16_f32)
      (shapeCast S256x256 x7 shapeCasts_S256x256_S256x256 : FVec Ideal S256x256 .bf16) (constant S1024x256 .f32 0x00000000#32))
    (broadcast S1024x256 (Scalar.ofBits (F := Ideal) .f32 0x3089705F#32)))

/-- The payload is these four stages composed. -/
theorem pay9_stages (v47 : Vec Ideal S1024x2048 .bf16) (x3 : Vec Ideal S2048x256 .bf16) (x4 : Vec Ideal S1x256 .f32)
    (x7 : Vec Ideal S256x256 .bf16) : k0_pay9 v47 x3 x4 x7 = stShare (stSoft (stWeight (stScore v47 x3 x4))) x7 := rfl

theorem stScore_apply (v47 : Vec Ideal S1024x2048 .bf16) (x3 : Vec Ideal S2048x256 .bf16) (x4 : Vec Ideal S1x256 .f32)
    (n : Fin 1024) (q : Fin 256) :
    stScore v47 x3 x4 (ix2 n q) = sScore (fun n k => v47 (ix2 n k)) (mW3 x3) (mB4 x4) n q := by
  unfold stScore
  rw [addf_apply, mm_score, broadcastTo_1b_ab_apply, shapeCast_self, shapeCast_self]
  rfl

theorem stWeight_apply (v54 : FVec Ideal S1024x256 .f32) (S : Fin 1024 → Fin 256 → EReal) (hS : ∀ n q, v54 (ix2 n q) = S n q)
    (n : Fin 1024) (q : Fin 256) :
    stWeight v54 (ix2 n q)
      = Ideal.exp (S n q - (Finset.univ : Finset (Fin 1024)).fold max Spec.negInf fun r => S r q) := by
  unfold stWeight
  rw [exp_apply, subf_apply, broadcastTo_1b_ab_apply, shapeCast_a_1a_apply, colmax_lit, hS n q]
  exact congrArg (fun f => Ideal.exp (S n q - (Finset.univ : Finset (Fin 1024)).fold max Spec.negInf f)) (funext fun r => hS r q)

theorem stSoft_apply (v59 : FVec Ideal S1024x256 .f32) (Wt : Fin 1024 → Fin 256 → EReal) (hW : ∀ n q, v59 (ix2 n q) = Wt n q)
    (n : Fin 1024) (q : Fin 256) :
    stSoft v59 (ix2 n q) = Ideal.div (Wt n q) (∑ r : Fin 1024, Wt r q) := by
  unfold stSoft
  rw [divf_apply, broadcastTo_1b_ab_apply, shapeCast_a_1a_apply, colsum_lit, hW n q]
  exact congrArg (Ideal.div (Wt n q)) (Finset.sum_congr rfl fun r _ => hW r q)

theorem stShare_apply (v63 : FVec Ideal S1024x256 .f32) (x7 : Vec Ideal S256x256 .bf16) (Sf : Fin 1024 → Fin 256 → EReal)
    (hS : ∀ n q, v63 (ix2 n q) = Sf n q) (n : Fin 1024) (q : Fin 256) :
    stShare v63 x7 (ix2 n q) = Ideal.div (Sf n q) ((∑ r : Fin 256, Sf n r * mW7 x7 r q) + Spec.eps) := by
  unfold stShare
  rw [divf_apply, addf_apply, mm_mass, broadcast_apply, shapeCast_self, hS n q]
  refine congrArg (Ideal.div (Sf n q)) (congrArg (· + Spec.eps) (Finset.sum_congr rfl fun r _ => ?_))
  rw [truncf_apply, hS n r]
  rfl

/-- The body's arithmetic between the two scratch buffers, read at row `n`, packed column `q`. -/
theorem pay9_apply (v47 : Vec Ideal S1024x2048 .bf16) (x3 : Vec Ideal S2048x256 .bf16) (x4 : Vec Ideal S1x256 .f32)
    (x7 : Vec Ideal S256x256 .bf16) (n : Fin 1024) (q : Fin 256) :
    k0_pay9 v47 x3 x4 x7 (ix2 n q) = sShare (fun n k => v47 (ix2 n k)) (mW3 x3) (mB4 x4) (mW7 x7) n q := by
  rw [pay9_stages]
  exact stShare_apply _ x7 (sSoft (fun n k => v47 (ix2 n k)) (mW3 x3) (mB4 x4))
    (stSoft_apply _ (sWeight (fun n k => v47 (ix2 n k)) (mW3 x3) (mB4 x4))
      (stWeight_apply _ (sScore (fun n k => v47 (ix2 n k)) (mW3 x3) (mB4 x4)) (stScore_apply v47 x3 x4))) n q

/-! ## The out-projection -/

theorem pay2_apply (x8 : Vec Ideal S2048x512 .bf16) (v118 : Vec Ideal S1024x2048 .bf16) (x9 : Vec Ideal S1x512 .f32)
    (n : Fin 1024) (e : Fin 512) :
    k0_pay2 x8 v118 x9 (ix3 (0 : Fin 1) n e) = (∑ j : Fin 2048, v118 (ix2 n j) * x8 (ix2 j e)) + x9 (ix2 (0 : Fin 1) e) := by
  unfold k0_pay2
  rw [shapeCast_ab_1ab_apply, addf_apply, mm_out, broadcastTo_1b_ab_apply, shapeCast_self, shapeCast_self]

end Cert.KernelIdeal.Body

end
-- ==== Proof.KBufs.lean ====
/-
  The two scratch buffers read back, and the output block, over the extended reals.

  Four stores fill the four 512-column ranges of a 1024 × 2048 buffer with the four column ranges of ONE matrix; read
  back at row `n`, column `k`, the buffer holds that matrix's entry `(n, k)` whichever range `k` falls in.  So the
  first scratch buffer is the packed form's hidden matrix, the second its back-projection, and the output block its
  result, of the staged blocks read as plain matrices.
-/
import proofs.«169363_j8134668059232_2_alg».proof.Proof.KPiece
import proofs.«169363_j8134668059232_2_alg».proof.Proof.KChunks

set_option maxRecDepth 16384

noncomputable section

namespace Cert.KernelIdeal.Body

open Cert.KernelIdeal Cert.KernelIdeal.Gen Cert.KernelIdeal.Ops Idealize.ShloMosaic Idealize.ShloMosaic.ValueIdx

/-- Column `o + j` of 2048, for a column `j` of a 512-wide range starting at `o ≤ 1536`. -/
def colAt (o : ℕ) (ho : o + 512 ≤ 2048) (j : Fin 512) : Fin 2048 := ⟨o + j.val, by have := j.isLt; omega⟩

/-- A position of a 512-column range of a 1024 × 2048 buffer, placed in the buffer. -/
theorem emb_cols (o : ℕ) (ho : o + 512 ≤ 2048)
    (inb : ∀ a, (![0, o] : Fin 2 → Nat) a + (![1024, 512] : Fin 2 → Nat) a ≤ S1024x2048.size a) (n : Fin 1024) (j : Fin 512) :
    (Rect.unit (s := S1024x2048) ![0, o] ![1024, 512] inb).emb (ix2 n j) = ix2 n (colAt o ho j) :=
  funext fun a => Fin.ext (by
    match a with
    | ⟨0, _⟩ => show 0 + 1 * n.val = n.val; omega
    | ⟨1, _⟩ => show o + 1 * j.val = o + j.val; omega)

/-- Four column ranges of one matrix `G`, stored side by side, read back as `G`. -/
theorem canon4_apply (P3 P2 P1 P0 : FVec Ideal S1024x512 .bf16) (G : Fin 1024 → Fin 2048 → EReal)
    (h0 : ∀ (n : Fin 1024) (j : Fin 512), P0 (ix2 n j) = G n (colAt 0 (by decide) j))
    (h1 : ∀ (n : Fin 1024) (j : Fin 512), P1 (ix2 n j) = G n (colAt 512 (by decide) j))
    (h2 : ∀ (n : Fin 1024) (j : Fin 512), P2 (ix2 n j) = G n (colAt 1024 (by decide) j))
    (h3 : ∀ (n : Fin 1024) (j : Fin 512), P3 (ix2 n j) = G n (colAt 1536 (by decide) j))
    (n : Fin 1024) (k : Fin 2048) :
    View.canon (Val := Elt Ideal) (s := S1024x2048) (e := .bf16)
      [⟨Rect.unit (s := S1024x2048) ![0, 1536] ![1024, 512] inb_S1024x2048_S1024x512_0_1536, P3⟩,
        ⟨Rect.unit (s := S1024x2048) ![0, 1024] ![1024, 512] inb_S1024x2048_S1024x512_0_1024, P2⟩,
        ⟨Rect.unit (s := S1024x2048) ![0, 512] ![1024, 512] inb_S1024x2048_S1024x512_0_512, P1⟩,
        ⟨Rect.unit (s := S1024x2048) ![0, 0] ![1024, 512] inb_S1024x2048_S1024x512_0_0, P0⟩] (ix2 n k) = G n k := by
  refine View.canon_apply_of_pieces (Val := Elt Ideal) (S := S1024x2048) (e := .bf16) (fun y : S1024x2048.Idx => G (y 0) (y 1)) _ ?_ (ix2 n k) ?_
  · intro p hp x
    simp only [List.mem_cons, List.mem_nil_iff, or_false] at hp
    rcases hp with rfl | rfl | rfl | rfl
    · obtain ⟨r, j, rfl⟩ : ∃ (r : Fin 1024) (j : Fin 512), x = ix2 r j := ⟨x 0, x 1, eq_ix2 (n0 := 1024) (n1 := 512) x⟩
      show P3 (ix2 r j) = _
      rw [emb_cols 1536 (by decide), h3 r j]
    · obtain ⟨r, j, rfl⟩ : ∃ (r : Fin 1024) (j : Fin 512), x = ix2 r j := ⟨x 0, x 1, eq_ix2 (n0 := 1024) (n1 := 512) x⟩
      show P2 (ix2 r j) = _
      rw [emb_cols 1024 (by decide), h2 r j]
    · obtain ⟨r, j, rfl⟩ : ∃ (r : Fin 1024) (j : Fin 512), x = ix2 r j := ⟨x 0, x 1, eq_ix2 (n0 := 1024) (n1 := 512) x⟩
      show P1 (ix2 r j) = _
      rw [emb_cols 512 (by decide), h1 r j]
    · obtain ⟨r, j, rfl⟩ : ∃ (r : Fin 1024) (j : Fin 512), x = ix2 r j := ⟨x 0, x 1, eq_ix2 (n0 := 1024) (n1 := 512) x⟩
      show P0 (ix2 r j) = _
      rw [emb_cols 0 (by decide), h0 r j]
  · have hn := n.isLt
    have hk := k.isLt
    by_cases c3 : 1536 ≤ k.val
    · refine ⟨_, List.mem_cons_self, ?_⟩
      show ix2 n k ∈ (Rect.unit (s := S1024x2048) ![0, 1536] ![1024, 512] inb_S1024x2048_S1024x512_0_1536).set
      refine Rect.mem_set_unit.mpr fun a => ?_
      match a with
      | ⟨0, _⟩ => exact ⟨Nat.zero_le _, by show n.val < 0 + 1024; omega⟩
      | ⟨1, _⟩ => exact ⟨c3, by show k.val < 1536 + 512; omega⟩
    by_cases c2 : 1024 ≤ k.val
    · refine ⟨_, List.mem_cons_of_mem _ List.mem_cons_self, ?_⟩
      show ix2 n k ∈ (Rect.unit (s := S1024x2048) ![0, 1024] ![1024, 512] inb_S1024x2048_S1024x512_0_1024).set
      refine Rect.mem_set_unit.mpr fun a => ?_
      match a with
      | ⟨0, _⟩ => exact ⟨Nat.zero_le _, by show n.val < 0 + 1024; omega⟩
      | ⟨1, _⟩ => exact ⟨c2, by show k.val < 1024 + 512; omega⟩
    by_cases c1 : 512 ≤ k.val
    · refine ⟨_, List.mem_cons_of_mem _ (List.mem_cons_of_mem _ List.mem_cons_self), ?_⟩
      show ix2 n k ∈ (Rect.unit (s := S1024x2048) ![0, 512] ![1024, 512] inb_S1024x2048_S1024x512_0_512).set
      refine Rect.mem_set_unit.mpr fun a => ?_
      match a with
      | ⟨0, _⟩ => exact ⟨Nat.zero_le _, by show n.val < 0 + 1024; omega⟩
      | ⟨1, _⟩ => exact ⟨c1, by show k.val < 512 + 512; omega⟩
    · refine ⟨_, List.mem_cons_of_mem _ (List.mem_cons_of_mem _ (List.mem_cons_of_mem _ List.mem_cons_self)), ?_⟩
      show ix2 n k ∈ (Rect.unit (s := S1024x2048) ![0, 0] ![1024, 512] inb_S1024x2048_S1024x512_0_0).set
      refine Rect.mem_set_unit.mpr fun a => ?_
      match a with
      | ⟨0, _⟩ => exact ⟨Nat.zero_le _, by show n.val < 0 + 1024; omega⟩
      | ⟨1, _⟩ => exact ⟨Nat.zero_le _, by show k.val < 0 + 512; omega⟩

/-- A chunk of the in-projection over a column range of the weights and the bias is that range of the hidden matrix. -/
theorem hidden_chunk (x0 : Vec Ideal S1x1024x512 .f32) (x1 : Vec Ideal S512x2048 .bf16) (x2 : Vec Ideal S1x2048 .f32)
    (o : ℕ) (ho : o + 512 ≤ 2048)
    (i1 : ∀ a, (![0, o] : Fin 2 → Nat) a + (![512, 512] : Fin 2 → Nat) a ≤ S512x2048.size a)
    (i2 : ∀ a, (![0, o] : Fin 2 → Nat) a + (![1, 512] : Fin 2 → Nat) a ≤ S1x2048.size a) (n : Fin 1024) (j : Fin 512) :
    (∑ e : Fin 512, mX x0 n e * View.ld x1 (Rect.unit (s := S512x2048) ![0, o] ![512, 512] i1) (ix2 e j))
        + View.ld x2 (Rect.unit (s := S1x2048) ![0, o] ![1, 512] i2) (ix2 (0 : Fin 1) j)
      = Packed.pHidden (mX x0) (mW1 x1) (mB1 x2) n (colAt o ho j) := by
  unfold Packed.pHidden mW1 mB1
  rw [ld_cols o x2 i2 (0 : Fin 1) j (colAt o ho j) rfl]
  exact congrArg (· + x2 (ix2 (0 : Fin 1) (colAt o ho j)))
    (Finset.sum_congr rfl fun e _ => congrArg (mX x0 n e * ·) (ld_cols o x1 i1 e j (colAt o ho j) rfl))

/-- The first scratch buffer, read back, is the hidden matrix. -/
theorem hiddenBuf_apply (x0 : Vec Ideal S1x1024x512 .f32) (x1 : Vec Ideal S512x2048 .bf16) (x2 : Vec Ideal S1x2048 .f32)
    (n : Fin 1024) (k : Fin 2048) :
    hiddenBuf x0 x1 x2 (ix2 n k) = Packed.pHidden (mX x0) (mW1 x1) (mB1 x2) n k := by
  unfold hiddenBuf
  refine canon4_apply _ _ _ _ (Packed.pHidden (mX x0) (mW1 x1) (mB1 x2)) ?_ ?_ ?_ ?_ n k
  · intro r j; rw [pay4_apply]; exact hidden_chunk x0 x1 x2 0 (by decide) _ _ r j
  · intro r j; rw [pay5_apply]; exact hidden_chunk x0 x1 x2 512 (by decide) _ _ r j
  · intro r j; rw [pay76_apply]; exact hidden_chunk x0 x1 x2 1024 (by decide) _ _ r j
  · intro r j; rw [pay83_apply]; exact hidden_chunk x0 x1 x2 1536 (by decide) _ _ r j

/-- The shares the body forms are the packed form's. -/
theorem shareBlk_apply (x0 : Vec Ideal S1x1024x512 .f32) (x1 : Vec Ideal S512x2048 .bf16) (x2 : Vec Ideal S1x2048 .f32)
    (x3 : Vec Ideal S2048x256 .bf16) (x4 : Vec Ideal S1x256 .f32) (x7 : Vec Ideal S256x256 .bf16) (n : Fin 1024) (q : Fin 256) :
    shareBlk x0 x1 x2 x3 x4 x7 (ix2 n q)
      = Packed.pShare (mX x0) (mW1 x1) (mB1 x2) (mW3 x3) (mB4 x4) (mW7 x7) n q := by
  unfold shareBlk
  rw [pay9_apply, ← sShare_hidden]
  exact congrArg (fun H => sShare H (mW3 x3) (mB4 x4) (mW7 x7) n q)
    (funext fun r => funext fun k => hiddenBuf_apply x0 x1 x2 r k)

/-- A chunk of the back-projection over a column range of its weights and bias. -/
theorem back_chunk (S : Fin 1024 → Fin 256 → EReal) (x5 : Vec Ideal S256x2048 .bf16) (x6 : Vec Ideal S1x2048 .f32)
    (o : ℕ) (ho : o + 512 ≤ 2048)
    (i1 : ∀ a, (![0, o] : Fin 2 → Nat) a + (![256, 512] : Fin 2 → Nat) a ≤ S256x2048.size a)
    (i2 : ∀ a, (![0, o] : Fin 2 → Nat) a + (![1, 512] : Fin 2 → Nat) a ≤ S1x2048.size a) (n : Fin 1024) (j : Fin 512) :
    (∑ q : Fin 256, S n q * View.ld x5 (Rect.unit (s := S256x2048) ![0, o] ![256, 512] i1) (ix2 q j))
        + View.ld x6 (Rect.unit (s := S1x2048) ![0, o] ![1, 512] i2) (ix2 (0 : Fin 1) j)
      = (∑ q : Fin 256, S n q * mW5 x5 q (colAt o ho j)) + mB6 x6 (colAt o ho j) := by
  unfold mW5 mB6
  rw [ld_cols o x6 i2 (0 : Fin 1) j (colAt o ho j) rfl]
  exact congrArg (· + x6 (ix2 (0 : Fin 1) (colAt o ho j)))
    (Finset.sum_congr rfl fun q _ => congrArg (S n q * ·) (ld_cols o x5 i1 q j (colAt o ho j) rfl))

/-- The second scratch buffer, read back, is the back-projection of the shares it was filled from. -/
theorem backBuf_apply (s : FVec Ideal S1024x256 .f32) (x5 : Vec Ideal S256x2048 .bf16) (x6 : Vec Ideal S1x2048 .f32)
    (n : Fin 1024) (k : Fin 2048) :
    backBuf s x5 x6 (ix2 n k) = (∑ q : Fin 256, s (ix2 n q) * mW5 x5 q k) + mB6 x6 k := by
  unfold backBuf
  refine canon4_apply _ _ _ _ (fun r k => (∑ q : Fin 256, s (ix2 r q) * mW5 x5 q k) + mB6 x6 k) ?_ ?_ ?_ ?_ n k
  · intro r j; rw [pay11_apply]; exact back_chunk (fun r q => s (ix2 r q)) x5 x6 0 (by decide) _ _ r j
  · intro r j; rw [pay12_apply]; exact back_chunk (fun r q => s (ix2 r q)) x5 x6 512 (by decide) _ _ r j
  · intro r j; rw [pay13_apply]; exact back_chunk (fun r q => s (ix2 r q)) x5 x6 1024 (by decide) _ _ r j
  · intro r j; rw [pay1_apply]; exact back_chunk (fun r q => s (ix2 r q)) x5 x6 1536 (by decide) _ _ r j

/-- THE OUTPUT BLOCK of a grid point is the packed form's result of its staged blocks. -/
theorem outBlk_apply (x0 : Vec Ideal S1x1024x512 .f32) (x1 : Vec Ideal S512x2048 .bf16) (x2 : Vec Ideal S1x2048 .f32)
    (x3 : Vec Ideal S2048x256 .bf16) (x4 : Vec Ideal S1x256 .f32) (x5 : Vec Ideal S256x2048 .bf16) (x6 : Vec Ideal S1x2048 .f32)
    (x7 : Vec Ideal S256x256 .bf16) (x8 : Vec Ideal S2048x512 .bf16) (x9 : Vec Ideal S1x512 .f32) (n : Fin 1024) (e : Fin 512) :
    outBlk x0 x1 x2 x3 x4 x5 x6 x7 x8 x9 (ix3 (0 : Fin 1) n e)
      = Packed.pOut (mX x0) (mW1 x1) (mB1 x2) (mW3 x3) (mB4 x4) (mW5 x5) (mB6 x6) (mW7 x7) (mW8 x8) (mB9 x9) n e := by
  unfold outBlk
  rw [pay2_apply]
  unfold Packed.pOut Packed.pBack mW8 mB9
  refine congrArg (· + x9 (ix2 (0 : Fin 1) e)) (Finset.sum_congr rfl fun j _ => congrArg (· * x8 (ix2 j e)) ?_)
  rw [backBuf_apply]
  exact congrArg (· + mB6 x6 j) (Finset.sum_congr rfl fun q _ => congrArg (· * mW5 x5 q j) (shareBlk_apply x0 x1 x2 x3 x4 x7 n q))

end Cert.KernelIdeal.Body

end
-- ==== Proof.Entry.lean ====
/-
  What the kernel's region finds in its input arrays.

  Before its one region the program converts two weight matrices to a narrower float format (the identity over the
  extended reals), builds the 16×16 identity matrix, forms three Kronecker products with it — block-diagonal matrices
  holding one copy of a head's small matrix per head —, repeats two biases once per head, and lays the other biases
  out as one row.  Each array is first identified with the term of the operations that wrote it, then read entry by
  entry:
    kron(E, W)[a·R + r, a'·C + s] = E[a, a'] · W[r, s],      tile(v)[h·n + s] = v[s].
  With E the identity the first factor is 1 when the row's head is the column's head and 0 otherwise.
-/
import proofs.«169363_j8134668059232_2_alg».proof.Proof.Gen.KernelIdeal.Frame
import proofs.«169363_j8134668059232_2_alg».proof.Proof.Spec
import Idealize.ShloMosaic.Lib.ValueIdx
import Idealize.ShloMosaic.Lib.ValueLayout
import Idealize.ShloMosaic.Lib.IdealHost
import Idealize.ShloMosaic.Lib.Affine
import Idealize.ShloMosaic.Lib.Pipeline.Value

noncomputable section

namespace Cert.KernelIdeal.Entry

open Cert.KernelIdeal Idealize.ShloMosaic Idealize.ShloMosaic.TcCoe Idealize.ShloMosaic.Tactic Idealize.ShloMosaic.ValueIdx
open Idealize.SL.Sem Idealize.ShloMosaic.StableHlo

variable (m : (ℓ : Loc nD τ sig) → Buf (Elt Ideal) ℓ) (c : Dev nD)

/-- An array the region finds is the value of the operations that wrote it, taken in program order. -/
local macro "host_term" : tactic => `(tactic| (
  dsimp only [Gen.V]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl))

/-- A broadcast's side condition on one axis: the operand's coordinate is the result's there, or `0` on a unit axis. -/
local macro "bc_side" : tactic => `(tactic| first | exact (if_pos (by rfl)).symm | exact (if_neg (by intro h; cases h)).symm)

/-! ## The identity matrix

  `eye[a, a'] = float (a + 0 == a')`: the row number, plus zero, compared with the column number, the one-bit answer read
  as an unsigned integer. -/

/-- The 16×16 identity matrix as the program builds it. -/
def eye : FVec Ideal S16x16 .f32 :=
  uitofp (F := Ideal) .f32 (cmpi .eq (addi (iotaInDim S16x16 32 0) (broadcastInDim S16x16 ![] Gen.bcast_S_S16x16 (constantI S_ 32 0#32))) (iotaInDim S16x16 32 1))

/-- Its entry at `(a, a')` is one on the diagonal and zero off it. -/
theorem eye_apply (a a' : Fin 16) : eye (ix2 a a') = if a = a' then (1 : EReal) else 0 := by
  have h0 : IntOp.addi (BitVec.ofNat 32 a.val) 0#32 = BitVec.ofNat 32 a.val := by
    show BitVec.ofNat 32 a.val + 0#32 = _
    exact BitVec.add_zero _
  show ((((IntOp.cmpi .eq (IntOp.addi (BitVec.ofNat 32 a.val) 0#32) (BitVec.ofNat 32 a'.val)).toNat : ℝ)) : EReal) = _
  rw [h0]
  by_cases h : a = a'
  · subst h
    rw [if_pos rfl, IntOp.cmpi_eq.2 rfl]
    simp
  · have hne : ¬ IntOp.cmpi .eq (BitVec.ofNat 32 a.val) (BitVec.ofNat 32 a'.val) = 1#1 := by
      intro hh
      have h1 := congrArg BitVec.toNat (IntOp.cmpi_eq.1 hh)
      rw [BitVec.toNat_ofNat, BitVec.toNat_ofNat] at h1
      have ha := a.isLt
      have ha' := a'.isLt
      exact h (Fin.ext (by omega))
    rw [if_neg h, eq_zero_of_ne_one hne]
    simp

/-- The all-ones 16×16 matrix: the word of 1 broadcast. -/
def ones : FVec Ideal S16x16 .f32 :=
  broadcastInDim S16x16 ![] Gen.bcast_S_S16x16 (constant (F := Ideal) S_ .f32 0x3F800000#32)

theorem ones_apply (i : S16x16.Idx) : ones i = 1 := by
  show Ideal.ofBits .f32 0x3F800000#32 = 1
  exact Ideal.ofBits_one_f32

/-! ## Kronecker products with the identity

  `kron(E, W)` is formed as `E[a, ·, a', ·] · W[·, r, ·, s]` over a 4-D array `[a, r, a', s]`, then read as a matrix
  with rows `a·R + r` and columns `a'·C + s`. -/

/-- `kron(E, W)` for a 128×16 `W`: a 2048×256 matrix. -/
def kronA (E : FVec Ideal S16x16 .f32) (W : FVec Ideal S128x16 .f32) : FVec Ideal S2048x256 .f32 :=
  shapeCast S2048x256 (mulf (F := Ideal) (φ := .f32)
      (broadcastInDim S16x128x16x16 ![0, 1, 2, 3] Gen.bcast_S16x1x16x1_S16x128x16x16_0_1_2_3 (broadcastInDim S16x1x16x1 ![0, 2] Gen.bcast_S16x16_S16x1x16x1_0_2 E))
      (broadcastInDim S16x128x16x16 ![0, 1, 2, 3] Gen.bcast_S1x128x1x16_S16x128x16x16_0_1_2_3 (broadcastInDim S1x128x1x16 ![1, 3] Gen.bcast_S128x16_S1x128x1x16_1_3 W)))
    Gen.shapeCasts_S16x128x16x16_S2048x256

theorem kronA_apply (E : FVec Ideal S16x16 .f32) (W : FVec Ideal S128x16 .f32) (k : Fin 2048) (q : Fin 256) :
    kronA E W (ix2 k q) = E (ix2 (Spec.head128 k) (Spec.head16 q)) * W (ix2 (Spec.lane128 k) (Spec.slot16 q)) := by
  unfold kronA
  refine (shapeCast_apply _ Gen.shapeCasts_S16x128x16x16_S2048x256 (ix2 k q)
    (ix4 (Spec.head128 k) (Spec.lane128 k) (Spec.head16 q) (Spec.slot16 q)) ?_).trans ?_
  · rw [Shape.rowMajor_val_four, Shape.rowMajor_val_two]
    have hk := k.isLt
    have hq := q.isLt
    show ((k.val / 128 * 128 + k.val % 128) * 16 + q.val / 16) * 16 + q.val % 16 = k.val * 256 + q.val
    omega
  · refine (mulf_apply _ _ _).trans ?_
    congr 1
    · refine (broadcastInDim_apply _ Gen.bcast_S16x1x16x1_S16x128x16x16_0_1_2_3 _ _
        (ix4 (Spec.head128 k) (0 : Fin 1) (Spec.head16 q) (0 : Fin 1)) (fun a => match a with
          | ⟨0, _⟩ => by bc_side | ⟨1, _⟩ => by bc_side | ⟨2, _⟩ => by bc_side | ⟨3, _⟩ => by bc_side)).trans ?_
      exact broadcastInDim_apply _ Gen.bcast_S16x16_S16x1x16x1_0_2 _ _ (ix2 (Spec.head128 k) (Spec.head16 q)) (fun a => match a with
          | ⟨0, _⟩ => by bc_side | ⟨1, _⟩ => by bc_side)
    · refine (broadcastInDim_apply _ Gen.bcast_S1x128x1x16_S16x128x16x16_0_1_2_3 _ _
        (ix4 (0 : Fin 1) (Spec.lane128 k) (0 : Fin 1) (Spec.slot16 q)) (fun a => match a with
          | ⟨0, _⟩ => by bc_side | ⟨1, _⟩ => by bc_side | ⟨2, _⟩ => by bc_side | ⟨3, _⟩ => by bc_side)).trans ?_
      exact broadcastInDim_apply _ Gen.bcast_S128x16_S1x128x1x16_1_3 _ _ (ix2 (Spec.lane128 k) (Spec.slot16 q)) (fun a => match a with
          | ⟨0, _⟩ => by bc_side | ⟨1, _⟩ => by bc_side)

/-- `kron(E, W)` for a 16×128 `W`: a 256×2048 matrix. -/
def kronB (E : FVec Ideal S16x16 .f32) (W : FVec Ideal S16x128 .f32) : FVec Ideal S256x2048 .f32 :=
  shapeCast S256x2048 (mulf (F := Ideal) (φ := .f32)
      (broadcastInDim S16x16x16x128 ![0, 1, 2, 3] Gen.bcast_S16x1x16x1_S16x16x16x128_0_1_2_3 (broadcastInDim S16x1x16x1 ![0, 2] Gen.bcast_S16x16_S16x1x16x1_0_2 E))
      (broadcastInDim S16x16x16x128 ![0, 1, 2, 3] Gen.bcast_S1x16x1x128_S16x16x16x128_0_1_2_3 (broadcastInDim S1x16x1x128 ![1, 3] Gen.bcast_S16x128_S1x16x1x128_1_3 W)))
    Gen.shapeCasts_S16x16x16x128_S256x2048

theorem kronB_apply (E : FVec Ideal S16x16 .f32) (W : FVec Ideal S16x128 .f32) (q : Fin 256) (j : Fin 2048) :
    kronB E W (ix2 q j) = E (ix2 (Spec.head16 q) (Spec.head128 j)) * W (ix2 (Spec.slot16 q) (Spec.lane128 j)) := by
  unfold kronB
  refine (shapeCast_apply _ Gen.shapeCasts_S16x16x16x128_S256x2048 (ix2 q j)
    (ix4 (Spec.head16 q) (Spec.slot16 q) (Spec.head128 j) (Spec.lane128 j)) ?_).trans ?_
  · rw [Shape.rowMajor_val_four, Shape.rowMajor_val_two]
    have hq := q.isLt
    have hj := j.isLt
    show ((q.val / 16 * 16 + q.val % 16) * 16 + j.val / 128) * 128 + j.val % 128 = q.val * 2048 + j.val
    omega
  · refine (mulf_apply _ _ _).trans ?_
    congr 1
    · refine (broadcastInDim_apply _ Gen.bcast_S16x1x16x1_S16x16x16x128_0_1_2_3 _ _
        (ix4 (Spec.head16 q) (0 : Fin 1) (Spec.head128 j) (0 : Fin 1)) (fun a => match a with
          | ⟨0, _⟩ => by bc_side | ⟨1, _⟩ => by bc_side | ⟨2, _⟩ => by bc_side | ⟨3, _⟩ => by bc_side)).trans ?_
      exact broadcastInDim_apply _ Gen.bcast_S16x16_S16x1x16x1_0_2 _ _ (ix2 (Spec.head16 q) (Spec.head128 j)) (fun a => match a with
          | ⟨0, _⟩ => by bc_side | ⟨1, _⟩ => by bc_side)
    · refine (broadcastInDim_apply _ Gen.bcast_S1x16x1x128_S16x16x16x128_0_1_2_3 _ _
        (ix4 (0 : Fin 1) (Spec.slot16 q) (0 : Fin 1) (Spec.lane128 j)) (fun a => match a with
          | ⟨0, _⟩ => by bc_side | ⟨1, _⟩ => by bc_side | ⟨2, _⟩ => by bc_side | ⟨3, _⟩ => by bc_side)).trans ?_
      exact broadcastInDim_apply _ Gen.bcast_S16x128_S1x16x1x128_1_3 _ _ (ix2 (Spec.slot16 q) (Spec.lane128 j)) (fun a => match a with
          | ⟨0, _⟩ => by bc_side | ⟨1, _⟩ => by bc_side)

/-- `kron(E, W)` for a 16×16 `W`: a 256×256 matrix. -/
def kronC (E : FVec Ideal S16x16 .f32) (W : FVec Ideal S16x16 .f32) : FVec Ideal S256x256 .f32 :=
  shapeCast S256x256 (mulf (F := Ideal) (φ := .f32)
      (broadcastInDim S16x16x16x16 ![0, 1, 2, 3] Gen.bcast_S16x1x16x1_S16x16x16x16_0_1_2_3 (broadcastInDim S16x1x16x1 ![0, 2] Gen.bcast_S16x16_S16x1x16x1_0_2 E))
      (broadcastInDim S16x16x16x16 ![0, 1, 2, 3] Gen.bcast_S1x16x1x16_S16x16x16x16_0_1_2_3 (broadcastInDim S1x16x1x16 ![1, 3] Gen.bcast_S16x16_S1x16x1x16_1_3 W)))
    Gen.shapeCasts_S16x16x16x16_S256x256

theorem kronC_apply (E : FVec Ideal S16x16 .f32) (W : FVec Ideal S16x16 .f32) (q q' : Fin 256) :
    kronC E W (ix2 q q') = E (ix2 (Spec.head16 q) (Spec.head16 q')) * W (ix2 (Spec.slot16 q) (Spec.slot16 q')) := by
  unfold kronC
  refine (shapeCast_apply _ Gen.shapeCasts_S16x16x16x16_S256x256 (ix2 q q')
    (ix4 (Spec.head16 q) (Spec.slot16 q) (Spec.head16 q') (Spec.slot16 q')) ?_).trans ?_
  · rw [Shape.rowMajor_val_four, Shape.rowMajor_val_two]
    have hq := q.isLt
    have hq' := q'.isLt
    show ((q.val / 16 * 16 + q.val % 16) * 16 + q'.val / 16) * 16 + q'.val % 16 = q.val * 256 + q'.val
    omega
  · refine (mulf_apply _ _ _).trans ?_
    congr 1
    · refine (broadcastInDim_apply _ Gen.bcast_S16x1x16x1_S16x16x16x16_0_1_2_3 _ _
        (ix4 (Spec.head16 q) (0 : Fin 1) (Spec.head16 q') (0 : Fin 1)) (fun a => match a with
          | ⟨0, _⟩ => by bc_side | ⟨1, _⟩ => by bc_side | ⟨2, _⟩ => by bc_side | ⟨3, _⟩ => by bc_side)).trans ?_
      exact broadcastInDim_apply _ Gen.bcast_S16x16_S16x1x16x1_0_2 _ _ (ix2 (Spec.head16 q) (Spec.head16 q')) (fun a => match a with
          | ⟨0, _⟩ => by bc_side | ⟨1, _⟩ => by bc_side)
    · refine (broadcastInDim_apply _ Gen.bcast_S1x16x1x16_S16x16x16x16_0_1_2_3 _ _
        (ix4 (0 : Fin 1) (Spec.slot16 q) (0 : Fin 1) (Spec.slot16 q')) (fun a => match a with
          | ⟨0, _⟩ => by bc_side | ⟨1, _⟩ => by bc_side | ⟨2, _⟩ => by bc_side | ⟨3, _⟩ => by bc_side)).trans ?_
      exact broadcastInDim_apply _ Gen.bcast_S16x16_S1x16x1x16_1_3 _ _ (ix2 (Spec.slot16 q) (Spec.slot16 q')) (fun a => match a with
          | ⟨0, _⟩ => by bc_side | ⟨1, _⟩ => by bc_side)

/-! ## The tiled biases

  A bias of one head is laid out as one row, repeated for the sixteen heads, and read as one long row: entry `h·n + s`
  is the bias at `s`. -/

/-- The 16 slot biases repeated for the sixteen heads, as one row of 256. -/
def tile16 (v : FVec Ideal S16 .f32) : FVec Ideal S1x256 .f32 :=
  shapeCast S1x256 (shapeCast S256 (broadcastInDim S16x16 ![0, 1] Gen.bcast_S1x16_S16x16_0_1 (shapeCast S1x16 v Gen.shapeCasts_S16_S1x16))
    Gen.shapeCasts_S16x16_S256) Gen.shapeCasts_S256_S1x256

theorem tile16_apply (v : FVec Ideal S16 .f32) (q : Fin 256) : tile16 v (ix2 (0 : Fin 1) q) = v (ix1 (Spec.slot16 q)) := by
  unfold tile16
  refine (shapeCast_a_1a_apply _ Gen.shapeCasts_S256_S1x256 (0 : Fin 1) q).trans ?_
  refine (shapeCast_apply _ Gen.shapeCasts_S16x16_S256 (ix1 q) (ix2 (Spec.head16 q) (Spec.slot16 q)) ?_).trans ?_
  · rw [Shape.rowMajor_val_two, Shape.rowMajor_val_one]
    have hq := q.isLt
    show q.val / 16 * 16 + q.val % 16 = q.val
    omega
  · refine (broadcastInDim_apply _ Gen.bcast_S1x16_S16x16_0_1 _ _ (ix2 (0 : Fin 1) (Spec.slot16 q)) (fun a => match a with
      | ⟨0, _⟩ => by bc_side | ⟨1, _⟩ => by bc_side)).trans ?_
    exact shapeCast_a_1a_apply _ Gen.shapeCasts_S16_S1x16 (0 : Fin 1) (Spec.slot16 q)

/-- The 128 lane biases repeated for the sixteen heads, as one row of 2048. -/
def tile128 (v : FVec Ideal S128 .f32) : FVec Ideal S1x2048 .f32 :=
  shapeCast S1x2048 (shapeCast S2048 (broadcastInDim S16x128 ![0, 1] Gen.bcast_S1x128_S16x128_0_1 (shapeCast S1x128 v Gen.shapeCasts_S128_S1x128))
    Gen.shapeCasts_S16x128_S2048) Gen.shapeCasts_S2048_S1x2048

theorem tile128_apply (v : FVec Ideal S128 .f32) (j : Fin 2048) : tile128 v (ix2 (0 : Fin 1) j) = v (ix1 (Spec.lane128 j)) := by
  unfold tile128
  refine (shapeCast_a_1a_apply _ Gen.shapeCasts_S2048_S1x2048 (0 : Fin 1) j).trans ?_
  refine (shapeCast_apply _ Gen.shapeCasts_S16x128_S2048 (ix1 j) (ix2 (Spec.head128 j) (Spec.lane128 j)) ?_).trans ?_
  · rw [Shape.rowMajor_val_two, Shape.rowMajor_val_one]
    have hj := j.isLt
    show j.val / 128 * 128 + j.val % 128 = j.val
    omega
  · refine (broadcastInDim_apply _ Gen.bcast_S1x128_S16x128_0_1 _ _ (ix2 (0 : Fin 1) (Spec.lane128 j)) (fun a => match a with
      | ⟨0, _⟩ => by bc_side | ⟨1, _⟩ => by bc_side)).trans ?_
    exact shapeCast_a_1a_apply _ Gen.shapeCasts_S128_S1x128 (0 : Fin 1) (Spec.lane128 j)

/-! ## The arrays the region finds, as their operations' terms -/

theorem e_v0 : (Gen.V m c main_v0 : S512x2048.Idx → EReal) = m ((c : Thread nD τ).loc main_arg1) := by host_term
theorem e_v1 : (Gen.V m c main_v1 : S2048x512.Idx → EReal) = m ((c : Thread nD τ).loc main_arg7) := by host_term
theorem e_v15 : (Gen.V m c main_v15 : S1x2048.Idx → EReal) = shapeCast S1x2048 (m ((c : Thread nD τ).loc main_arg2) : S2048.Idx → EReal) Gen.shapeCasts_S2048_S1x2048 := by host_term
theorem e_v24 : (Gen.V m c main_v24 : S1x512.Idx → EReal) = shapeCast S1x512 (m ((c : Thread nD τ).loc main_arg8) : S512.Idx → EReal) Gen.shapeCasts_S512_S1x512 := by host_term
theorem e_v19 : (Gen.V m c main_v19 : S1x256.Idx → EReal) = tile16 (m ((c : Thread nD τ).loc main_arg4)) := by host_term
theorem e_v23 : (Gen.V m c main_v23 : S1x2048.Idx → EReal) = tile128 (m ((c : Thread nD τ).loc main_arg6)) := by host_term
theorem e_v12 : (Gen.V m c main_v12 : S2048x256.Idx → EReal) = kronA eye (m ((c : Thread nD τ).loc main_arg3)) := by host_term
theorem e_v13 : (Gen.V m c main_v13 : S256x2048.Idx → EReal) = kronB eye (m ((c : Thread nD τ).loc main_arg5)) := by host_term
theorem e_v14 : (Gen.V m c main_v14 : S256x256.Idx → EReal) = kronC eye ones := by host_term

/-! ## The arrays the region finds, entry by entry -/

/-- The input projection's weights are the argument's (their conversion to a narrower format is the identity here). -/
theorem at_v0 (e : Fin 512) (j : Fin 2048) : Gen.V m c main_v0 (ix2 e j) = m ((c : Thread nD τ).loc main_arg1) (ix2 e j) :=
  congrFun (e_v0 m c) _
/-- The output projection's weights are the argument's. -/
theorem at_v1 (j : Fin 2048) (e : Fin 512) : Gen.V m c main_v1 (ix2 j e) = m ((c : Thread nD τ).loc main_arg7) (ix2 j e) :=
  congrFun (e_v1 m c) _
/-- The input projection's bias as one row. -/
theorem at_v15 (j : Fin 2048) : Gen.V m c main_v15 (ix2 (0 : Fin 1) j) = m ((c : Thread nD τ).loc main_arg2) (ix1 j) :=
  (congrFun (e_v15 m c) _).trans (shapeCast_a_1a_apply _ _ _ _)
/-- The output projection's bias as one row. -/
theorem at_v24 (e : Fin 512) : Gen.V m c main_v24 (ix2 (0 : Fin 1) e) = m ((c : Thread nD τ).loc main_arg8) (ix1 e) :=
  (congrFun (e_v24 m c) _).trans (shapeCast_a_1a_apply _ _ _ _)
/-- The score bias, repeated for every head. -/
theorem at_v19 (q : Fin 256) : Gen.V m c main_v19 (ix2 (0 : Fin 1) q) = m ((c : Thread nD τ).loc main_arg4) (ix1 (Spec.slot16 q)) :=
  (congrFun (e_v19 m c) _).trans (tile16_apply _ q)
/-- The read-back bias, repeated for every head. -/
theorem at_v23 (j : Fin 2048) : Gen.V m c main_v23 (ix2 (0 : Fin 1) j) = m ((c : Thread nD τ).loc main_arg6) (ix1 (Spec.lane128 j)) :=
  (congrFun (e_v23 m c) _).trans (tile128_apply _ j)
/-- The score weights, one block per head on the diagonal. -/
theorem at_v12 (k : Fin 2048) (q : Fin 256) : Gen.V m c main_v12 (ix2 k q)
    = (if Spec.head128 k = Spec.head16 q then (1 : EReal) else 0) * m ((c : Thread nD τ).loc main_arg3) (ix2 (Spec.lane128 k) (Spec.slot16 q)) :=
  (congrFun (e_v12 m c) _).trans ((kronA_apply _ _ k q).trans (by rw [eye_apply]))
/-- The read-back weights, one block per head on the diagonal. -/
theorem at_v13 (q : Fin 256) (j : Fin 2048) : Gen.V m c main_v13 (ix2 q j)
    = (if Spec.head16 q = Spec.head128 j then (1 : EReal) else 0) * m ((c : Thread nD τ).loc main_arg5) (ix2 (Spec.slot16 q) (Spec.lane128 j)) :=
  (congrFun (e_v13 m c) _).trans ((kronB_apply _ _ q j).trans (by rw [eye_apply]))
/-- The matrix that sums a head's sixteen slots: one where the two columns belong to one head, zero elsewhere. -/
theorem at_v14 (q q' : Fin 256) : Gen.V m c main_v14 (ix2 q q') = (if Spec.head16 q = Spec.head16 q' then (1 : EReal) else 0) :=
  (congrFun (e_v14 m c) _).trans ((kronC_apply _ _ q q').trans (by rw [eye_apply, ones_apply, mul_one]))

end Cert.KernelIdeal.Entry

end
-- ==== Proof.Collapse.lean ====
/-
  The packed arrangement collapses to the per-head function.

  The packed computation keeps the sixteen heads side by side: a hidden column is k = a·128 + d (head a, lane d), a
  score column is q = a·16 + s (head a, slot s).  Its three inner contractions run over every column, against a matrix
  that is the identity of the heads times a small matrix, so in each sum every run of columns but one is multiplied by
  zero.  On the extended reals  0 * w = 0,  v * 0 = 0,  1 * w = w  and  v * 1 = v  hold for every v and w, infinite
  ones included, so the sum is the sum over the surviving run and no finiteness assumption is used.
-/
import proofs.«169363_j8134668059232_2_alg».proof.Proof.Packed

noncomputable section

namespace Cert.Collapse

open Idealize.ShloMosaic Cert.Spec Cert.Packed

/-! ## Splitting a flat column into head and lane (or slot), and back -/

theorem head128_col128 (h : Fin 16) (d : Fin 128) : head128 (col128 h d) = h := by
  apply Fin.ext
  have := h.isLt; have := d.isLt
  simp only [head128, col128]
  omega

theorem lane128_col128 (h : Fin 16) (d : Fin 128) : lane128 (col128 h d) = d := by
  apply Fin.ext
  have := h.isLt; have := d.isLt
  simp only [lane128, col128]
  omega

theorem head16_col16 (h : Fin 16) (s : Fin 16) : head16 (col16 h s) = h := by
  apply Fin.ext
  have := h.isLt; have := s.isLt
  simp only [head16, col16]
  omega

theorem slot16_col16 (h : Fin 16) (s : Fin 16) : slot16 (col16 h s) = s := by
  apply Fin.ext
  have := h.isLt; have := s.isLt
  simp only [slot16, col16]
  omega

theorem col128_head_lane (j : Fin 2048) : col128 (head128 j) (lane128 j) = j := by
  apply Fin.ext
  have := j.isLt
  simp only [head128, lane128, col128]
  omega

theorem col16_head_slot (q : Fin 256) : col16 (head16 q) (slot16 q) = q := by
  apply Fin.ext
  have := q.isLt
  simp only [head16, slot16, col16]
  omega

section
variable (x : Fin 32 → Fin 1024 → Fin 512 → EReal) (Win : Fin 512 → Fin 2048 → EReal) (bin : Fin 2048 → EReal)
  (Wmk : Fin 128 → Fin 16 → EReal) (bmk : Fin 16 → EReal) (Wmv : Fin 16 → Fin 128 → EReal) (bmv : Fin 128 → EReal)
  (Wout : Fin 2048 → Fin 512 → EReal) (bout : Fin 512 → EReal) (b : Fin 32)
  (W3 : Fin 2048 → Fin 256 → EReal) (B4 : Fin 256 → EReal) (W5 : Fin 256 → Fin 2048 → EReal) (B6 : Fin 2048 → EReal)
  (W7 : Fin 256 → Fin 256 → EReal)

/-- The first projection is the same sum, column by column. -/
theorem pHidden_eq (n : Fin 1024) (j : Fin 2048) :
    pHidden (x b) Win bin n j = hidden x Win bin b n j := rfl

/-- The packed score at column q = a·16 + s is head a's score at slot s: of the 2048 terms only the 128 of head a's
    run carry a nonzero factor. -/
theorem pScore_eq
    (h3 : ∀ k q, W3 k q = (if head128 k = head16 q then (1 : EReal) else 0) * Wmk (lane128 k) (slot16 q))
    (h4 : ∀ q, B4 q = bmk (slot16 q)) (n : Fin 1024) (q : Fin 256) :
    pScore (x b) Win bin W3 B4 n q = score x Win bin Wmk bmk b (head16 q) n (slot16 q) := by
  unfold pScore score
  rw [h4 q]
  congr 1
  refine sum_one_run 16 128 2048 rfl _ _ (head16 q) (fun d => ?_) (fun a d ha => ?_)
  · change pHidden (x b) Win bin n (col128 (head16 q) d) * W3 (col128 (head16 q) d) q
        = hidden x Win bin b n (col128 (head16 q) d) * Wmk d (slot16 q)
    rw [h3, head128_col128, lane128_col128, if_pos rfl, one_mul, pHidden_eq]
  · change pHidden (x b) Win bin n (col128 a d) * W3 (col128 a d) q = 0
    rw [h3, head128_col128, if_neg ha, zero_mul, mul_zero]

/-- The column maximum over the rows. -/
theorem pTop_eq
    (h3 : ∀ k q, W3 k q = (if head128 k = head16 q then (1 : EReal) else 0) * Wmk (lane128 k) (slot16 q))
    (h4 : ∀ q, B4 q = bmk (slot16 q)) (q : Fin 256) :
    pTop (x b) Win bin W3 B4 q = top x Win bin Wmk bmk b (head16 q) (slot16 q) := by
  unfold pTop top
  exact congrArg (fun f => Finset.fold max negInf f (Finset.univ : Finset (Fin 1024)))
    (funext fun n => pScore_eq x Win bin Wmk bmk b W3 B4 h3 h4 n q)

theorem pWeight_eq
    (h3 : ∀ k q, W3 k q = (if head128 k = head16 q then (1 : EReal) else 0) * Wmk (lane128 k) (slot16 q))
    (h4 : ∀ q, B4 q = bmk (slot16 q)) (n : Fin 1024) (q : Fin 256) :
    pWeight (x b) Win bin W3 B4 n q = weight x Win bin Wmk bmk b (head16 q) n (slot16 q) := by
  unfold pWeight weight
  rw [pScore_eq x Win bin Wmk bmk b W3 B4 h3 h4, pTop_eq x Win bin Wmk bmk b W3 B4 h3 h4]

theorem pTotal_eq
    (h3 : ∀ k q, W3 k q = (if head128 k = head16 q then (1 : EReal) else 0) * Wmk (lane128 k) (slot16 q))
    (h4 : ∀ q, B4 q = bmk (slot16 q)) (q : Fin 256) :
    pTotal (x b) Win bin W3 B4 q = total x Win bin Wmk bmk b (head16 q) (slot16 q) := by
  unfold pTotal total
  exact Finset.sum_congr rfl fun n _ => pWeight_eq x Win bin Wmk bmk b W3 B4 h3 h4 n q

/-- The softmax along the sequence, column by column. -/
theorem pSoft_eq
    (h3 : ∀ k q, W3 k q = (if head128 k = head16 q then (1 : EReal) else 0) * Wmk (lane128 k) (slot16 q))
    (h4 : ∀ q, B4 q = bmk (slot16 q)) (n : Fin 1024) (q : Fin 256) :
    pSoft (x b) Win bin W3 B4 n q = soft x Win bin Wmk bmk b (head16 q) n (slot16 q) := by
  unfold pSoft soft
  rw [pWeight_eq x Win bin Wmk bmk b W3 B4 h3 h4, pTotal_eq x Win bin Wmk bmk b W3 B4 h3 h4]

/-- The packed slot sum at column q = a·16 + s is head a's: the 0/1 matrix keeps the sixteen columns of head a. -/
theorem pMass_eq
    (h3 : ∀ k q, W3 k q = (if head128 k = head16 q then (1 : EReal) else 0) * Wmk (lane128 k) (slot16 q))
    (h4 : ∀ q, B4 q = bmk (slot16 q))
    (h7 : ∀ r q, W7 r q = (if head16 r = head16 q then (1 : EReal) else 0)) (n : Fin 1024) (q : Fin 256) :
    pMass (x b) Win bin W3 B4 W7 n q = mass x Win bin Wmk bmk b (head16 q) n := by
  unfold pMass mass
  congr 1
  refine sum_one_run 16 16 256 rfl _ _ (head16 q) (fun s => ?_) (fun a s ha => ?_)
  · change pSoft (x b) Win bin W3 B4 n (col16 (head16 q) s) * W7 (col16 (head16 q) s) q
        = soft x Win bin Wmk bmk b (head16 q) n s
    rw [h7, head16_col16, if_pos rfl, mul_one, pSoft_eq x Win bin Wmk bmk b W3 B4 h3 h4, head16_col16, slot16_col16]
  · change pSoft (x b) Win bin W3 B4 n (col16 a s) * W7 (col16 a s) q = 0
    rw [h7, head16_col16, if_neg ha, mul_zero]

/-- The L1 normalisation over the slots, column by column. -/
theorem pShare_eq
    (h3 : ∀ k q, W3 k q = (if head128 k = head16 q then (1 : EReal) else 0) * Wmk (lane128 k) (slot16 q))
    (h4 : ∀ q, B4 q = bmk (slot16 q))
    (h7 : ∀ r q, W7 r q = (if head16 r = head16 q then (1 : EReal) else 0)) (n : Fin 1024) (q : Fin 256) :
    pShare (x b) Win bin W3 B4 W7 n q = share x Win bin Wmk bmk b (head16 q) n (slot16 q) := by
  unfold pShare share
  rw [pSoft_eq x Win bin Wmk bmk b W3 B4 h3 h4, pMass_eq x Win bin Wmk bmk b W3 B4 W7 h3 h4 h7]

/-- The packed second contraction at column j = a·128 + d is head a's at lane d: of the 256 terms only the sixteen of
    head a's run carry a nonzero factor. -/
theorem pBack_eq
    (h3 : ∀ k q, W3 k q = (if head128 k = head16 q then (1 : EReal) else 0) * Wmk (lane128 k) (slot16 q))
    (h4 : ∀ q, B4 q = bmk (slot16 q))
    (h5 : ∀ q j, W5 q j = (if head16 q = head128 j then (1 : EReal) else 0) * Wmv (slot16 q) (lane128 j))
    (h6 : ∀ j, B6 j = bmv (lane128 j))
    (h7 : ∀ r q, W7 r q = (if head16 r = head16 q then (1 : EReal) else 0)) (n : Fin 1024) (j : Fin 2048) :
    pBack (x b) Win bin W3 B4 W5 B6 W7 n j
      = back x Win bin Wmk bmk Wmv bmv b n (head128 j) (lane128 j) := by
  unfold pBack back
  rw [h6 j]
  congr 1
  refine sum_one_run 16 16 256 rfl _ _ (head128 j) (fun s => ?_) (fun a s ha => ?_)
  · change pShare (x b) Win bin W3 B4 W7 n (col16 (head128 j) s) * W5 (col16 (head128 j) s) j
        = share x Win bin Wmk bmk b (head128 j) n s * Wmv s (lane128 j)
    rw [h5, head16_col16, slot16_col16, if_pos rfl, one_mul,
      pShare_eq x Win bin Wmk bmk b W3 B4 W7 h3 h4 h7, head16_col16, slot16_col16]
  · change pShare (x b) Win bin W3 B4 W7 n (col16 a s) * W5 (col16 a s) j = 0
    rw [h5, head16_col16, if_neg ha, zero_mul, mul_zero]

end

/-- With block-diagonal W3, W5, W7 and head-by-head repeated biases B4, B6, the packed computation on batch b is the
    per-head function at b. -/
theorem pOut_eq (x : Fin 32 → Fin 1024 → Fin 512 → EReal) (Win : Fin 512 → Fin 2048 → EReal) (bin : Fin 2048 → EReal)
    (Wmk : Fin 128 → Fin 16 → EReal) (bmk : Fin 16 → EReal) (Wmv : Fin 16 → Fin 128 → EReal) (bmv : Fin 128 → EReal)
    (Wout : Fin 2048 → Fin 512 → EReal) (bout : Fin 512 → EReal) (b : Fin 32)
    (W3 : Fin 2048 → Fin 256 → EReal) (B4 : Fin 256 → EReal) (W5 : Fin 256 → Fin 2048 → EReal) (B6 : Fin 2048 → EReal) (W7 : Fin 256 → Fin 256 → EReal)
    (h3 : ∀ k q, W3 k q = (if Spec.head128 k = Spec.head16 q then (1 : EReal) else 0) * Wmk (Spec.lane128 k) (Spec.slot16 q))
    (h4 : ∀ q, B4 q = bmk (Spec.slot16 q))
    (h5 : ∀ q j, W5 q j = (if Spec.head16 q = Spec.head128 j then (1 : EReal) else 0) * Wmv (Spec.slot16 q) (Spec.lane128 j))
    (h6 : ∀ j, B6 j = bmv (Spec.lane128 j))
    (h7 : ∀ r q, W7 r q = (if Spec.head16 r = Spec.head16 q then (1 : EReal) else 0))
    (n : Fin 1024) (e : Fin 512) :
    Packed.pOut (x b) Win bin W3 B4 W5 B6 W7 Wout bout n e
      = Spec.result x Win bin Wmk bmk Wmv bmv Wout bout b n e := by
  unfold Packed.pOut Spec.result
  refine congrArg (fun t => t + bout e) (Finset.sum_congr rfl fun j _ => ?_)
  rw [pBack_eq x Win bin Wmk bmk Wmv bmv b W3 B4 W5 B6 W7 h3 h4 h5 h6 h7 n j]

end Cert.Collapse

end
-- ==== Proof.KValue.lean ====
/-
  From blocks to the array: the kernel's result array after the run, as one function of the argument arrays.

  Grid point `t` stages batch `t` of the input and the nine weight and bias arrays whole, and writes back batch `t` of
  the result.  Its output block is the packed form's result of the staged blocks (KBufs.lean); the staged weight
  matrices are, entry by entry, the block-diagonal packings of the small matrices (Entry.lean), for which the packed
  form is `Spec.result` (Collapse.lean).  The thirty-two batches cover the result array, so it ends holding `Spec.G`
  of the arguments.
-/
import proofs.«169363_j8134668059232_2_alg».proof.Proof.Gen.KernelIdeal.Value
import proofs.«169363_j8134668059232_2_alg».proof.Proof.KBufs
import proofs.«169363_j8134668059232_2_alg».proof.Proof.Entry
import proofs.«169363_j8134668059232_2_alg».proof.Proof.Collapse

set_option maxRecDepth 16384

noncomputable section

namespace Cert.KernelIdeal.RunValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array: `Spec.G` of the nine argument arrays as launched. -/
def GK (c : Dev nD) : S32x1024x512.Idx → EReal :=
  Spec.G (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- The grid has thirty-two points, one per batch. -/
def batchOf (t : Fin cfg0.N) : Fin 32 := ⟨t.val, by have := t.isLt; have h : grid0.N = 32 := N_0; exact lt_of_lt_of_eq this h⟩

/-- The printed index maps, decided over the grid: the input and the result move with the batch, every other window
    stays at block zero. -/
theorem idx_facts : ∀ t : Fin cfg0.N, win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 3) = t.val
    ∧ win0_10.index t (1 : Fin 3) = 0
    ∧ win0_10.index t (2 : Fin 3) = 0 :=
  (by decide +kernel : ∀ t : Fin grid0.N, _)

/-- Batch `t`'s block of the input or the result, placed in the array. -/
theorem emb0 (t : Fin cfg0.N) (n : Fin 1024) (e : Fin 512) :
    ((cfg0.win 0).blk t).view.emb (ix3 (0 : Fin 1) n e) = ix3 (batchOf t) n e := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 512 + 1 * e.val = e.val; omega

theorem emb10 (t : Fin cfg0.N) (n : Fin 1024) (e : Fin 512) :
    ((cfg0.win 10).blk t).view.emb (ix3 (0 : Fin 1) n e) = ix3 (batchOf t) n e := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_10.index t (0 : Fin 3) * 1 + 1 * 0 = t.val; omega
  | ⟨1, _⟩ => show win0_10.index t (1 : Fin 3) * 1024 + 1 * n.val = n.val; omega
  | ⟨2, _⟩ => show win0_10.index t (2 : Fin 3) * 512 + 1 * e.val = e.val; omega

/-! Every other window's one block is its whole array. -/

theorem emb1 (t : Fin cfg0.N) (p : Fin 512) (q : Fin 2048) :
    ((cfg0.win 1).blk t).view.emb (ix2 p q) = ix2 p q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_1.index t (0 : Fin 2) * 512 + 1 * p.val = p.val; omega
  | ⟨1, _⟩ => show win0_1.index t (1 : Fin 2) * 2048 + 1 * q.val = q.val; omega

theorem emb2 (t : Fin cfg0.N) (q : Fin 2048) :
    ((cfg0.win 2).blk t).view.emb (ix2 (0 : Fin 1) q) = ix2 (0 : Fin 1) q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_2.index t (0 : Fin 2) * 1 + 1 * 0 = 0; omega
  | ⟨1, _⟩ => show win0_2.index t (1 : Fin 2) * 2048 + 1 * q.val = q.val; omega

theorem emb3 (t : Fin cfg0.N) (p : Fin 2048) (q : Fin 256) :
    ((cfg0.win 3).blk t).view.emb (ix2 p q) = ix2 p q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_3.index t (0 : Fin 2) * 2048 + 1 * p.val = p.val; omega
  | ⟨1, _⟩ => show win0_3.index t (1 : Fin 2) * 256 + 1 * q.val = q.val; omega

theorem emb4 (t : Fin cfg0.N) (q : Fin 256) :
    ((cfg0.win 4).blk t).view.emb (ix2 (0 : Fin 1) q) = ix2 (0 : Fin 1) q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_4.index t (0 : Fin 2) * 1 + 1 * 0 = 0; omega
  | ⟨1, _⟩ => show win0_4.index t (1 : Fin 2) * 256 + 1 * q.val = q.val; omega

theorem emb5 (t : Fin cfg0.N) (p : Fin 256) (q : Fin 2048) :
    ((cfg0.win 5).blk t).view.emb (ix2 p q) = ix2 p q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_5.index t (0 : Fin 2) * 256 + 1 * p.val = p.val; omega
  | ⟨1, _⟩ => show win0_5.index t (1 : Fin 2) * 2048 + 1 * q.val = q.val; omega

theorem emb6 (t : Fin cfg0.N) (q : Fin 2048) :
    ((cfg0.win 6).blk t).view.emb (ix2 (0 : Fin 1) q) = ix2 (0 : Fin 1) q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_6.index t (0 : Fin 2) * 1 + 1 * 0 = 0; omega
  | ⟨1, _⟩ => show win0_6.index t (1 : Fin 2) * 2048 + 1 * q.val = q.val; omega

theorem emb7 (t : Fin cfg0.N) (p : Fin 256) (q : Fin 256) :
    ((cfg0.win 7).blk t).view.emb (ix2 p q) = ix2 p q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_7.index t (0 : Fin 2) * 256 + 1 * p.val = p.val; omega
  | ⟨1, _⟩ => show win0_7.index t (1 : Fin 2) * 256 + 1 * q.val = q.val; omega

theorem emb8 (t : Fin cfg0.N) (p : Fin 2048) (q : Fin 512) :
    ((cfg0.win 8).blk t).view.emb (ix2 p q) = ix2 p q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_8.index t (0 : Fin 2) * 2048 + 1 * p.val = p.val; omega
  | ⟨1, _⟩ => show win0_8.index t (1 : Fin 2) * 512 + 1 * q.val = q.val; omega

theorem emb9 (t : Fin cfg0.N) (q : Fin 512) :
    ((cfg0.win 9).blk t).view.emb (ix2 (0 : Fin 1) q) = ix2 (0 : Fin 1) q := by
  obtain ⟨f0, f1, f2, f3, f4, f5, f6, f7, f8, f9, f10, f11, f12, f13, f14, f15, f16, f17, f18, f19, f20, f21, f22, f23⟩ := idx_facts t
  funext a; apply Fin.ext
  match a with
  | ⟨0, _⟩ => show win0_9.index t (0 : Fin 2) * 1 + 1 * 0 = 0; omega
  | ⟨1, _⟩ => show win0_9.index t (1 : Fin 2) * 512 + 1 * q.val = q.val; omega

/-! ## The staged blocks, as matrices of the arguments -/

theorem stagedX (c : Dev nD) (t : Fin cfg0.N) :
    Body.mX (iblk m c 0 t) = fun n e => (m ((c : Thread nD τ).loc main_arg0)) (ix3 (batchOf t) n e) := by
  funext n e
  show V m c main_arg0 (((cfg0.win 0).blk t).view.emb (ix3 (0 : Fin 1) n e)) = _
  rw [emb0 t n e, V_main_arg0]

theorem stagedW1 (c : Dev nD) (t : Fin cfg0.N) : Body.mW1 (iblk m c 1 t) = fun e j => (m ((c : Thread nD τ).loc main_arg1)) (ix2 e j) := by
  funext e j
  show V m c main_v0 (((cfg0.win 1).blk t).view.emb (ix2 e j)) = _
  rw [emb1 t e j]; exact Entry.at_v0 m c e j

theorem stagedB1 (c : Dev nD) (t : Fin cfg0.N) : Body.mB1 (iblk m c 2 t) = fun j => (m ((c : Thread nD τ).loc main_arg2)) (ix1 j) := by
  funext j
  show V m c main_v15 (((cfg0.win 2).blk t).view.emb (ix2 (0 : Fin 1) j)) = _
  rw [emb2 t j]; exact Entry.at_v15 m c j

theorem stagedW3 (c : Dev nD) (t : Fin cfg0.N) (k : Fin 2048) (q : Fin 256) :
    Body.mW3 (iblk m c 3 t) k q = (if Spec.head128 k = Spec.head16 q then (1 : EReal) else 0) * (m ((c : Thread nD τ).loc main_arg3)) (ix2 (Spec.lane128 k) (Spec.slot16 q)) := by
  show V m c main_v12 (((cfg0.win 3).blk t).view.emb (ix2 k q)) = _
  rw [emb3 t k q]; exact Entry.at_v12 m c k q

theorem stagedB4 (c : Dev nD) (t : Fin cfg0.N) (q : Fin 256) :
    Body.mB4 (iblk m c 4 t) q = (m ((c : Thread nD τ).loc main_arg4)) (ix1 (Spec.slot16 q)) := by
  show V m c main_v19 (((cfg0.win 4).blk t).view.emb (ix2 (0 : Fin 1) q)) = _
  rw [emb4 t q]; exact Entry.at_v19 m c q

theorem stagedW5 (c : Dev nD) (t : Fin cfg0.N) (q : Fin 256) (j : Fin 2048) :
    Body.mW5 (iblk m c 5 t) q j = (if Spec.head16 q = Spec.head128 j then (1 : EReal) else 0) * (m ((c : Thread nD τ).loc main_arg5)) (ix2 (Spec.slot16 q) (Spec.lane128 j)) := by
  show V m c main_v13 (((cfg0.win 5).blk t).view.emb (ix2 q j)) = _
  rw [emb5 t q j]; exact Entry.at_v13 m c q j

theorem stagedB6 (c : Dev nD) (t : Fin cfg0.N) (j : Fin 2048) :
    Body.mB6 (iblk m c 6 t) j = (m ((c : Thread nD τ).loc main_arg6)) (ix1 (Spec.lane128 j)) := by
  show V m c main_v23 (((cfg0.win 6).blk t).view.emb (ix2 (0 : Fin 1) j)) = _
  rw [emb6 t j]; exact Entry.at_v23 m c j

theorem stagedW7 (c : Dev nD) (t : Fin cfg0.N) (r q : Fin 256) :
    Body.mW7 (iblk m c 7 t) r q = (if Spec.head16 r = Spec.head16 q then (1 : EReal) else 0) := by
  show V m c main_v14 (((cfg0.win 7).blk t).view.emb (ix2 r q)) = _
  rw [emb7 t r q]; exact Entry.at_v14 m c r q

theorem stagedW8 (c : Dev nD) (t : Fin cfg0.N) : Body.mW8 (iblk m c 8 t) = fun j e => (m ((c : Thread nD τ).loc main_arg7)) (ix2 j e) := by
  funext j e
  show V m c main_v1 (((cfg0.win 8).blk t).view.emb (ix2 j e)) = _
  rw [emb8 t j e]; exact Entry.at_v1 m c j e

theorem stagedB9 (c : Dev nD) (t : Fin cfg0.N) : Body.mB9 (iblk m c 9 t) = fun e => (m ((c : Thread nD τ).loc main_arg8)) (ix1 e) := by
  funext e
  show V m c main_v24 (((cfg0.win 9).blk t).view.emb (ix2 (0 : Fin 1) e)) = _
  rw [emb9 t e]; exact Entry.at_v24 m c e

/-! ## What a point writes back, the cover, the array -/

/-- WHAT POINT `t` WRITES BACK is batch `t` of `Spec.G` of the arguments. -/
theorem flushed_eq (c : Dev nD) (t : Fin cfg0.N) :
    (dats m 0 c).flushed 10 t = ((cfg0.win 10).blk t).view.read (Elt Ideal) (GK m c) := by
  rw [Value.flushed10_A]
  rw [Body.out0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)]
  funext y
  obtain ⟨u, n, e, rfl⟩ : ∃ (u : Fin 1) (n : Fin 1024) (e : Fin 512), y = ix3 u n e := ⟨y 0, y 1, y 2, eq_ix3 (n0 := 1) (n1 := 1024) (n2 := 512) y⟩
  obtain rfl : u = 0 := Subsingleton.elim _ _
  show Body.outBlk (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) n e) = GK m c (((cfg0.win 10).blk t).view.emb (ix3 (0 : Fin 1) n e))
  rw [emb10 t n e]
  refine (Body.outBlk_apply (iblk m c 0 t) (iblk m c 1 t) (iblk m c 2 t) (iblk m c 3 t) (iblk m c 4 t) (iblk m c 5 t) (iblk m c 6 t) (iblk m c 7 t) (iblk m c 8 t) (iblk m c 9 t) n e).trans ?_
  rw [stagedX m c t, stagedW1 m c t, stagedB1 m c t, stagedW8 m c t, stagedB9 m c t]
  exact Collapse.pOut_eq (fun b n e => (m ((c : Thread nD τ).loc main_arg0)) (ix3 b n e)) _ _
    (fun d s => (m ((c : Thread nD τ).loc main_arg3)) (ix2 d s)) (fun s => (m ((c : Thread nD τ).loc main_arg4)) (ix1 s))
    (fun s d => (m ((c : Thread nD τ).loc main_arg5)) (ix2 s d)) (fun d => (m ((c : Thread nD τ).loc main_arg6)) (ix1 d)) _ _ (batchOf t)
    (Body.mW3 (iblk m c 3 t)) (Body.mB4 (iblk m c 4 t)) (Body.mW5 (iblk m c 5 t)) (Body.mB6 (iblk m c 6 t)) (Body.mW7 (iblk m c 7 t))
    (stagedW3 m c t) (stagedB4 m c t) (stagedW5 m c t) (stagedB6 m c t) (stagedW7 m c t) n e

/-- An index of the result array is in point `t`'s block iff each coordinate is in the block's range on its axis. -/
theorem mem_blk (t : Fin cfg0.N) (i : S32x1024x512.Idx) :
    i ∈ ((cfg0.win 10).blk t).view.set ↔ ∀ a : Fin 3, win0_10.index t a * S1x1024x512.size a ≤ (i a).val ∧ (i a).val < win0_10.index t a * S1x1024x512.size a + S1x1024x512.size a := by
  show i ∈ ((View.whole main_v25).slice (win0_10.rect t)).set ↔ _
  rw [View.set_slice_whole, Rect.mem_set_unit]
  exact Iff.rfl

/-- THE ARRAY after the run: the batches cover it, so it is `Spec.G` of the arguments. -/
theorem final (c : Dev nD) : (dats m 0 c).arrAt 10 cfg0.N = GK m c :=
  (dats m 0 c).arrAt_eq_of_cover 10 (GK m c) (fun t _ => flushed_eq m c t) fun i => by
    have h0 : (i 0).val < 32 := (i 0).isLt
    have h1 : (i 1).val < 1024 := (i 1).isLt
    have h2 : (i 2).val < 512 := (i 2).isLt
    have hN : grid0.N = 32 := N_0
    refine ⟨⟨(i 0).val, lt_of_lt_of_eq h0 hN.symm⟩, flush0_10 _, ?_⟩
    rw [mem_blk]
    obtain ⟨f0, f1, f2, f3, f4, f5, f6, f7, f8, f9, f10, f11, f12, f13, f14, f15, f16, f17, f18, f19, f20, f21, f22, f23⟩ := idx_facts ⟨(i 0).val, lt_of_lt_of_eq h0 hN.symm⟩
    intro a
    match a with
    | ⟨0, _⟩ => show win0_10.index _ (0 : Fin 3) * 1 ≤ (i 0).val ∧ (i 0).val < win0_10.index _ (0 : Fin 3) * 1 + 1; rw [f21]; show (i 0).val * 1 ≤ (i 0).val ∧ (i 0).val < (i 0).val * 1 + 1; omega
    | ⟨1, _⟩ => show win0_10.index _ (1 : Fin 3) * 1024 ≤ (i 1).val ∧ (i 1).val < win0_10.index _ (1 : Fin 3) * 1024 + 1024; rw [f22]; omega
    | ⟨2, _⟩ => show win0_10.index _ (2 : Fin 3) * 512 ≤ (i 2).val ∧ (i 2).val < win0_10.index _ (2 : Fin 3) * 512 + 512; rw [f23]; omega

/-- The frame run re-posted: the result array at `Spec.G` of the arguments, the arguments unchanged. -/
theorem run : θ_run defs (onTc (τ := τ) (main (F := Ideal))) ⟨m, fun _ => 0, ρ⟩ fun r => ∀ c : Dev nD,
      r.2.mem ((c : Thread nD τ).loc main_v25) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.RunValue

end
-- ==== Proof.RefValueScore.lean ====
/-
  The reference program's first stages, read at explicit coordinates, are the specification's named quantities:
  the hidden projection, the scores, and the scores' maximum over the rows of the sequence.
-/
import proofs.«169363_j8134668059232_2_alg».proof.Proof.Gen.ReferenceIdeal.Read
import proofs.«169363_j8134668059232_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

section
variable (a0 : (⟨S32x1024x512, .f32⟩ : BufTy).Contents (Elt Ideal)) (a1 : (⟨S512x2048, .f32⟩ : BufTy).Contents (Elt Ideal))
  (a2 : (⟨S2048, .f32⟩ : BufTy).Contents (Elt Ideal)) (a3 : (⟨S128x16, .f32⟩ : BufTy).Contents (Elt Ideal))
  (a4 : (⟨S16, .f32⟩ : BufTy).Contents (Elt Ideal))

/-- The argument arrays read by coordinates: the specification's inputs. -/
abbrev X : Fin 32 → Fin 1024 → Fin 512 → EReal := fun b n e => a0 (ix3 b n e)
abbrev Win : Fin 512 → Fin 2048 → EReal := fun e j => a1 (ix2 e j)
abbrev bin : Fin 2048 → EReal := fun j => a2 (ix1 j)
abbrev Wmk : Fin 128 → Fin 16 → EReal := fun d s => a3 (ix2 d s)
abbrev bmk : Fin 16 → EReal := fun s => a4 (ix1 s)

/-- The first contraction plus its bias, at (b, n, j), is the hidden projection. -/
theorem hidden_eq (b : Fin 32) (n : Fin 1024) (j : Fin 2048) :
    val_main_v3 (F := Ideal) a0 a1 a2 (ix3 b n j) = Spec.hidden (X a0) (Win a1) (bin a2) b n j := by
  rw [val_main_v3_apply, val_main_v0_apply, val_main_v2_apply, val_main_v1_apply]
  have eb : idx_main_v1 (idx_main_v2 (ix3 b n j)) = ix1 j :=
    funext fun a => Fin.ext (by match a with | ⟨0, _⟩ => rfl)
  have el : ∀ k : Fin 512, lidx_main_v0 (ix3 b n j) k = ix3 b n k := fun k =>
    funext fun a => Fin.ext (by match a with | ⟨0, _⟩ => rfl | ⟨1, _⟩ => rfl | ⟨2, _⟩ => rfl)
  have er : ∀ k : Fin 512, ridx_main_v0 (ix3 b n j) k = ix2 k j := fun k =>
    funext fun a => Fin.ext (by match a with | ⟨0, _⟩ => rfl | ⟨1, _⟩ => rfl)
  rw [eb]
  simp only [Ideal.addf_def, el, er]
  rfl

/-- The split and transposed hidden array at (b, h, n, d) is the hidden projection's column `h·128 + d`. -/
theorem split_eq (b : Fin 32) (h : Fin 16) (n : Fin 1024) (d : Fin 128) :
    val_main_v5 (F := Ideal) a0 a1 a2 (ix4 b h n d) = Spec.hidden (X a0) (Win a1) (bin a2) b n (Spec.col128 h d) := by
  rw [val_main_v5_apply, val_main_v4_apply, ← hidden_eq]
  refine congrArg _ (funext fun a => Fin.ext ?_)
  have hb := b.isLt; have hh := h.isLt; have hn := n.isLt; have hd := d.isLt
  match a with
  | ⟨0, _⟩ => show (((b.val * 1024 + n.val) * 16 + h.val) * 128 + d.val) / 2097152 = b.val; omega
  | ⟨1, _⟩ => show (((b.val * 1024 + n.val) * 16 + h.val) * 128 + d.val) / 2048 % 1024 = n.val; omega
  | ⟨2, _⟩ => show (((b.val * 1024 + n.val) * 16 + h.val) * 128 + d.val) % 2048 = h.val * 128 + d.val; omega

/-- The second contraction plus its bias, at (b, h, n, s), is the score. -/
theorem score_eq (b : Fin 32) (h : Fin 16) (n : Fin 1024) (s : Fin 16) :
    val_main_v9 (F := Ideal) a0 a1 a2 a3 a4 (ix4 b h n s)
      = Spec.score (X a0) (Win a1) (bin a2) (Wmk a3) (bmk a4) b h n s := by
  rw [val_main_v9_apply, val_main_v6_apply, val_main_v8_apply, val_main_v7_apply]
  have eb : idx_main_v7 (idx_main_v8 (ix4 b h n s)) = ix1 s :=
    funext fun a => Fin.ext (by match a with | ⟨0, _⟩ => rfl)
  have el : ∀ k : Fin 128, lidx_main_v6 (ix4 b h n s) k = ix4 b h n k := fun k =>
    funext fun a => Fin.ext (by match a with | ⟨0, _⟩ => rfl | ⟨1, _⟩ => rfl | ⟨2, _⟩ => rfl | ⟨3, _⟩ => rfl)
  have er : ∀ k : Fin 128, ridx_main_v6 (ix4 b h n s) k = ix2 k s := fun k =>
    funext fun a => Fin.ext (by match a with | ⟨0, _⟩ => rfl | ⟨1, _⟩ => rfl)
  rw [eb]
  simp only [Ideal.addf_def, el, er, split_eq]
  rfl

/-- The f32 word 0xFF800000 is the least extended real. -/
theorem negInf_eq_bot : Ideal.ofBits .f32 0xFF800000#32 = (⊥ : EReal) := by
  simp [Ideal.ofBits, Ideal.ieee]

/-- The maximum over the rows, joined once more with -∞, at (b, h, s), is the specification's `top`. -/
theorem top_eq (b : Fin 32) (h : Fin 16) (s : Fin 16) :
    val_main_v12 (F := Ideal) a0 a1 a2 a3 a4 (ix3 b h s)
      = Spec.top (X a0) (Win a1) (bin a2) (Wmk a3) (bmk a4) b h s := by
  have hR : S32x16x1024x16.Reduces [2] S32x16x16 := by decide
  have hfold : val_main_v10 (F := Ideal) a0 a1 a2 a3 a4 (ix3 b h s)
      = Spec.top (X a0) (Win a1) (bin a2) (Wmk a3) (bmk a4) b h s := by
    unfold val_main_v10
    rw [Host.reduce_eq_fold_single FloatOps.maximumf _ _ _ hR h_S_]
    have hf : (val_main_v9 (F := Ideal) a0 a1 a2 a3 a4 ∘ hR.lift (ix3 b h s))
        = fun n : Fin 1024 => Spec.score (X a0) (Win a1) (bin a2) (Wmk a3) (bmk a4) b h n s := by
      funext k
      have hk : hR.lift (ix3 b h s) k = ix4 b h (⟨k.val, k.isLt⟩ : Fin 1024) s :=
        funext fun c => Fin.ext (by match c with | ⟨0, _⟩ => rfl | ⟨1, _⟩ => rfl | ⟨2, _⟩ => rfl | ⟨3, _⟩ => rfl)
      show val_main_v9 (F := Ideal) a0 a1 a2 a3 a4 (hR.lift (ix3 b h s) k) = _
      rw [hk]
      exact score_eq a0 a1 a2 a3 a4 b h ⟨k.val, k.isLt⟩ s
    rw [hf]
    rfl
  rw [val_main_v12_apply, hfold, val_main_v11_apply, val_main_cst_0_apply]
  simp only [Ideal.maximumf_def, Ideal.ofBits_def]
  rw [negInf_eq_bot]
  exact max_eq_right bot_le

end

end Cert.ReferenceIdeal.RefValue

end
-- ==== Proof.RefValueSoft.lean ====
/-
  The reference program's softmax along the sequence and its L1 normalisation over the slots, read at explicit
  coordinates, are the specification's `weight`, `total`, `soft`, `mass` and `share`.
-/
import proofs.«169363_j8134668059232_2_alg».proof.Proof.Gen.ReferenceIdeal.Read
import proofs.«169363_j8134668059232_2_alg».proof.Proof.Spec
import Idealize.ShloMosaic.Lib.ValueIdx
import Idealize.ShloMosaic.PureOps.Ideal.Laws
import Idealize.ShloMosaic.PureOps.Reduce
import proofs.«169363_j8134668059232_2_alg».proof.Proof.RefValueScore

noncomputable section

namespace Cert.ReferenceIdeal.RefValue

open Cert.ReferenceIdeal Cert.ReferenceIdeal.Gen Cert.ReferenceIdeal.Read Idealize.ShloMosaic Idealize.ShloMosaic.ValueIdx

section
variable (a0 : (⟨S32x1024x512, .f32⟩ : BufTy).Contents (Elt Ideal)) (a1 : (⟨S512x2048, .f32⟩ : BufTy).Contents (Elt Ideal))
  (a2 : (⟨S2048, .f32⟩ : BufTy).Contents (Elt Ideal)) (a3 : (⟨S128x16, .f32⟩ : BufTy).Contents (Elt Ideal))
  (a4 : (⟨S16, .f32⟩ : BufTy).Contents (Elt Ideal))

/-- The exponential of the score less its maximum, at (b, h, n, s), is the weight. -/
theorem weight_eq (b : Fin 32) (h : Fin 16) (n : Fin 1024) (s : Fin 16) :
    val_main_v16 (F := Ideal) a0 a1 a2 a3 a4 (ix4 b h n s)
      = Spec.weight (X a0) (Win a1) (bin a2) (Wmk a3) (bmk a4) b h n s := by
  rw [val_main_v16_apply, val_main_v15_apply, val_main_v14_apply, val_main_v13_apply]
  have e : idx_main_v13 (idx_main_v14 (ix4 b h n s)) = ix3 b h s :=
    funext fun a => Fin.ext (by match a with | ⟨0, _⟩ => rfl | ⟨1, _⟩ => rfl | ⟨2, _⟩ => rfl)
  rw [e, score_eq, top_eq]
  rfl

/-- The sum of the weights over the rows, from the zero word, at (b, h, s), is the total. -/
theorem total_eq (b : Fin 32) (h : Fin 16) (s : Fin 16) :
    val_main_v17 (F := Ideal) a0 a1 a2 a3 a4 (ix3 b h s)
      = Spec.total (X a0) (Win a1) (bin a2) (Wmk a3) (bmk a4) b h s := by
  rw [val_main_v17_apply, val_main_cst_1_apply]
  have e : ∀ k : Fin 1024, idx_main_v17 (ix3 b h s) k = ix4 b h k s := fun k =>
    funext fun a => Fin.ext (by match a with | ⟨0, _⟩ => rfl | ⟨1, _⟩ => rfl | ⟨2, _⟩ => rfl | ⟨3, _⟩ => rfl)
  simp only [Ideal.ofBits_def, Ideal.ofBits_zero_f32, zero_add, e, weight_eq]
  rfl

/-- The weight over the total, at (b, h, n, s), is the softmax along the sequence. -/
theorem soft_eq (b : Fin 32) (h : Fin 16) (n : Fin 1024) (s : Fin 16) :
    val_main_v20 (F := Ideal) a0 a1 a2 a3 a4 (ix4 b h n s)
      = Spec.soft (X a0) (Win a1) (bin a2) (Wmk a3) (bmk a4) b h n s := by
  rw [val_main_v20_apply, val_main_v19_apply, val_main_v18_apply]
  have e : idx_main_v18 (idx_main_v19 (ix4 b h n s)) = ix3 b h s :=
    funext fun a => Fin.ext (by match a with | ⟨0, _⟩ => rfl | ⟨1, _⟩ => rfl | ⟨2, _⟩ => rfl)
  rw [e, weight_eq, total_eq]
  rfl

/-- The sum of the softmax over the slots, from the zero word, plus ε, at (b, h, n, 0), is the mass. -/
theorem mass_eq (b : Fin 32) (h : Fin 16) (n : Fin 1024) :
    val_main_v24 (F := Ideal) a0 a1 a2 a3 a4 (ix4 b h n (0 : Fin 1))
      = Spec.mass (X a0) (Win a1) (bin a2) (Wmk a3) (bmk a4) b h n := by
  rw [val_main_v24_apply, val_main_v22_apply, val_main_v21_apply, val_main_v23_apply, val_main_cst_3_apply,
    val_main_cst_2_apply]
  have e : ∀ k : Fin 16, idx_main_v21 (idx_main_v22 (ix4 b h n (0 : Fin 1))) k = ix4 b h n k := fun k =>
    funext fun a => Fin.ext (by match a with | ⟨0, _⟩ => rfl | ⟨1, _⟩ => rfl | ⟨2, _⟩ => rfl | ⟨3, _⟩ => rfl)
  simp only [Ideal.addf_def, Ideal.ofBits_def, Ideal.ofBits_zero_f32, zero_add, e, soft_eq]
  rfl

/-- The softmax over the mass, at (b, h, n, s), is the share. -/
theorem share_eq (b : Fin 32) (h : Fin 16) (n : Fin 1024) (s : Fin 16) :
    val_main_v26 (F := Ideal) a0 a1 a2 a3 a4 (ix4 b h n s)
      = Spec.share (X a0) (Win a1) (bin a2) (Wmk a3) (bmk a4) b h n s := by
  rw [val_main_v26_apply, val_main_v25_apply]
  have e : idx_main_v25 (ix4 b h n s) = ix4 b h n (0 : Fin 1) :=
    funext fun a => Fin.ext (by match a with | ⟨0, _⟩ => rfl | ⟨1, _⟩ => rfl | ⟨2, _⟩ => rfl | ⟨3, _⟩ => rfl)
  rw [e, soft_eq, mass_eq]
  rfl

end

end Cert.ReferenceIdeal.RefValue

end
-- ==== Proof.RefValue.lean ====
/-
  The reference program's last stages, read at explicit coordinates, are the specification's `back` and `result`;
  so the program's result array is the specification's `G` of the nine argument arrays.
-/
import proofs.«169363_j8134668059232_2_alg».proof.Proof.Gen.ReferenceIdeal.Read
import proofs.«169363_j8134668059232_2_alg».proof.Proof.Spec
import Idealize.ShloMosaic.Lib.ValueIdx
import Idealize.ShloMosaic.PureOps.Ideal.Laws
import Idealize.ShloMosaic.PureOps.Reduce
import proofs.«169363_j8134668059232_2_alg».proof.Proof.RefValueSoft

noncomputable section

namespace Cert.ReferenceIdeal.RefValue

open Cert.ReferenceIdeal Cert.ReferenceIdeal.Gen Cert.ReferenceIdeal.Read Idealize.ShloMosaic Idealize.ShloMosaic.ValueIdx

section
variable (a0 : (⟨S32x1024x512, .f32⟩ : BufTy).Contents (Elt Ideal)) (a1 : (⟨S512x2048, .f32⟩ : BufTy).Contents (Elt Ideal))
  (a2 : (⟨S2048, .f32⟩ : BufTy).Contents (Elt Ideal)) (a3 : (⟨S128x16, .f32⟩ : BufTy).Contents (Elt Ideal))
  (a4 : (⟨S16, .f32⟩ : BufTy).Contents (Elt Ideal)) (a5 : (⟨S16x128, .f32⟩ : BufTy).Contents (Elt Ideal))
  (a6 : (⟨S128, .f32⟩ : BufTy).Contents (Elt Ideal)) (a7 : (⟨S2048x512, .f32⟩ : BufTy).Contents (Elt Ideal))
  (a8 : (⟨S512, .f32⟩ : BufTy).Contents (Elt Ideal))

/-- The remaining argument arrays read by coordinates. -/
abbrev Wmv : Fin 16 → Fin 128 → EReal := fun s d => a5 (ix2 s d)
abbrev bmv : Fin 128 → EReal := fun d => a6 (ix1 d)
abbrev Wout : Fin 2048 → Fin 512 → EReal := fun j e => a7 (ix2 j e)
abbrev bout : Fin 512 → EReal := fun e => a8 (ix1 e)

/-- The third contraction plus its bias, at (b, h, n, d), is the specification's `back` at (b, n, h, d). -/
theorem back_eq (b : Fin 32) (h : Fin 16) (n : Fin 1024) (d : Fin 128) :
    val_main_v30 (F := Ideal) a0 a1 a2 a3 a4 a5 a6 (ix4 b h n d)
      = Spec.back (X a0) (Win a1) (bin a2) (Wmk a3) (bmk a4) (Wmv a5) (bmv a6) b n h d := by
  rw [val_main_v30_apply, val_main_v27_apply, val_main_v29_apply, val_main_v28_apply]
  have eb : idx_main_v28 (idx_main_v29 (ix4 b h n d)) = ix1 d :=
    funext fun a => Fin.ext (by match a with | ⟨0, _⟩ => rfl)
  have el : ∀ k : Fin 16, lidx_main_v27 (ix4 b h n d) k = ix4 b h n k := fun k =>
    funext fun a => Fin.ext (by match a with | ⟨0, _⟩ => rfl | ⟨1, _⟩ => rfl | ⟨2, _⟩ => rfl | ⟨3, _⟩ => rfl)
  have er : ∀ k : Fin 16, ridx_main_v27 (ix4 b h n d) k = ix2 k d := fun k =>
    funext fun a => Fin.ext (by match a with | ⟨0, _⟩ => rfl | ⟨1, _⟩ => rfl)
  rw [eb]
  simp only [Ideal.addf_def, el, er, share_eq]
  rfl

/-- Transposed back and merged into 2048 columns, at (b, n, j), it is `back` at head `j / 128`, lane `j % 128`. -/
theorem merged_eq (b : Fin 32) (n : Fin 1024) (j : Fin 2048) :
    val_main_v32 (F := Ideal) a0 a1 a2 a3 a4 a5 a6 (ix3 b n j)
      = Spec.back (X a0) (Win a1) (bin a2) (Wmk a3) (bmk a4) (Wmv a5) (bmv a6) b n (Spec.head128 j) (Spec.lane128 j) := by
  rw [val_main_v32_apply, val_main_v31_apply, ← back_eq]
  refine congrArg _ (funext fun a => Fin.ext ?_)
  have hb := b.isLt; have hn := n.isLt; have hj := j.isLt
  match a with
  | ⟨0, _⟩ => show ((b.val * 1024 + n.val) * 2048 + j.val) / 2097152 = b.val; omega
  | ⟨1, _⟩ => show ((b.val * 1024 + n.val) * 2048 + j.val) / 128 % 16 = j.val / 128; omega
  | ⟨2, _⟩ => show ((b.val * 1024 + n.val) * 2048 + j.val) / 2048 % 1024 = n.val; omega
  | ⟨3, _⟩ => show ((b.val * 1024 + n.val) * 2048 + j.val) % 128 = j.val % 128; omega

/-- The last contraction plus its bias, at (b, n, e), is the specification's result. -/
theorem result_apply (b : Fin 32) (n : Fin 1024) (e : Fin 512) :
    val_main_v36 (F := Ideal) a0 a1 a2 a3 a4 a5 a6 a7 a8 (ix3 b n e)
      = Spec.result (X a0) (Win a1) (bin a2) (Wmk a3) (bmk a4) (Wmv a5) (bmv a6) (Wout a7) (bout a8) b n e := by
  rw [val_main_v36_apply, val_main_v33_apply, val_main_v35_apply, val_main_v34_apply]
  have eb : idx_main_v34 (idx_main_v35 (ix3 b n e)) = ix1 e :=
    funext fun a => Fin.ext (by match a with | ⟨0, _⟩ => rfl)
  have el : ∀ k : Fin 2048, lidx_main_v33 (ix3 b n e) k = ix3 b n k := fun k =>
    funext fun a => Fin.ext (by match a with | ⟨0, _⟩ => rfl | ⟨1, _⟩ => rfl | ⟨2, _⟩ => rfl)
  have er : ∀ k : Fin 2048, ridx_main_v33 (ix3 b n e) k = ix2 k e := fun k =>
    funext fun a => Fin.ext (by match a with | ⟨0, _⟩ => rfl | ⟨1, _⟩ => rfl)
  rw [eb]
  simp only [Ideal.addf_def, el, er, merged_eq]
  rfl

end

/-- The reference program's result array is the specification's `G` of the nine argument arrays. -/
theorem result_eq (a0 : (⟨S32x1024x512, .f32⟩ : BufTy).Contents (Elt Ideal)) (a1 : (⟨S512x2048, .f32⟩ : BufTy).Contents (Elt Ideal)) (a2 : (⟨S2048, .f32⟩ : BufTy).Contents (Elt Ideal)) (a3 : (⟨S128x16, .f32⟩ : BufTy).Contents (Elt Ideal)) (a4 : (⟨S16, .f32⟩ : BufTy).Contents (Elt Ideal)) (a5 : (⟨S16x128, .f32⟩ : BufTy).Contents (Elt Ideal)) (a6 : (⟨S128, .f32⟩ : BufTy).Contents (Elt Ideal)) (a7 : (⟨S2048x512, .f32⟩ : BufTy).Contents (Elt Ideal)) (a8 : (⟨S512, .f32⟩ : BufTy).Contents (Elt Ideal)) :
    Cert.ReferenceIdeal.Read.val_main_v36 (F := Ideal) a0 a1 a2 a3 a4 a5 a6 a7 a8 = Cert.Spec.G a0 a1 a2 a3 a4 a5 a6 a7 a8 := by
  funext i
  obtain ⟨b, n, e, rfl⟩ : ∃ (b : Fin 32) (n : Fin 1024) (e : Fin 512), i = ix3 b n e := ⟨i 0, i 1, i 2, eq_ix3 i⟩
  rw [result_apply, Spec.G_apply]

end Cert.ReferenceIdeal.RefValue

end
-- ==== Proof.lean ====
/-
  The kernel packs sixteen attention heads side by side — a 1024 × 512 batch is projected to 2048 hidden columns, scored
  against block-diagonal packings of the small per-head matrices, soft-maxed along the sequence, L1-normalised per
  head through a block matrix of ones, projected back and out — one batch per grid point; the reference computes the
  same per head with einsums.  Over the extended reals both end with `Spec.G` of the nine argument arrays:

  * the reference's result is `Spec.G` stage by stage (RefValue.lean, over the generated reading of its run);
  * a grid point's output block is the packed form's result of its staged blocks (KPiece, KChunks, KBufs), the staged
    packings are the identity of the heads times the small matrices (Entry.lean), off-diagonal terms `x · 0` vanish
    on all of the extended reals and the sums collapse to the per-head sums (Collapse.lean) — no finiteness of the
    inputs is used —, and the thirty-two batches cover the result array (KValue.lean).

  The frames are the generated ones; the idealization rewrote nothing, so `preserves` is trivial.
-/
import proofs.«169363_j8134668059232_2_alg».proof.Defs
import proofs.«169363_j8134668059232_2_alg».proof.Proof.Gen.Kernel
import proofs.«169363_j8134668059232_2_alg».proof.Proof.Gen.Kernel.Skeleton
import proofs.«169363_j8134668059232_2_alg».proof.Proof.Gen.Kernel.Launch
import proofs.«169363_j8134668059232_2_alg».proof.Proof.Gen.Kernel.Points
import proofs.«169363_j8134668059232_2_alg».proof.Proof.Gen.Kernel.Frame
import proofs.«169363_j8134668059232_2_alg».proof.Proof.Gen.KernelIdeal
import proofs.«169363_j8134668059232_2_alg».proof.Proof.Gen.KernelIdeal.Skeleton
import proofs.«169363_j8134668059232_2_alg».proof.Proof.Gen.KernelIdeal.Launch
import proofs.«169363_j8134668059232_2_alg».proof.Proof.Gen.KernelIdeal.Points
import proofs.«169363_j8134668059232_2_alg».proof.Proof.Gen.KernelIdeal.Frame
import proofs.«169363_j8134668059232_2_alg».proof.Proof.Gen.ReferenceIdeal
import proofs.«169363_j8134668059232_2_alg».proof.Proof.Gen.Pre_finite_inputs
import proofs.«169363_j8134668059232_2_alg».proof.Proof.Gen.KernelIdeal.Value
import proofs.«169363_j8134668059232_2_alg».proof.Proof.Gen.ReferenceIdeal.Run
import proofs.«169363_j8134668059232_2_alg».proof.Proof.Gen.ReferenceIdeal.Read
import proofs.«169363_j8134668059232_2_alg».proof.Proof.KValue
import proofs.«169363_j8134668059232_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with `Spec.G` of arguments that agree. -/
theorem algebraic : Cert.algebraic_KernelIdeal_ReferenceIdeal := by
  intro m ρ m' ρ' _ hagree
  refine ⟨fun c => Cert.KernelIdeal.RunValue.GK m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v36_eq, Cert.ReferenceIdeal.RefValue.result_eq, e0, e1, e2, e3, e4, e5, e6, e7, e8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
